-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x50 : Shape := ⟨2, ![32768, 50]⟩
abbrev S32768 : Shape := ⟨1, ![32768]⟩
abbrev S100000x64 : Shape := ⟨2, ![100000, 64]⟩
abbrev S64x1 : Shape := ⟨2, ![64, 1]⟩
abbrev S64 : Shape := ⟨1, ![64]⟩
abbrev S64x64 : Shape := ⟨2, ![64, 64]⟩
abbrev S2x64x64 : Shape := ⟨3, ![2, 64, 64]⟩
abbrev S2x64 : Shape := ⟨2, ![2, 64]⟩
abbrev S_ : Shape := ⟨0, ![]⟩

class Facts : Prop where
  bcast_S_S32768 : S_.BroadcastsInDim S32768 (![] : Fin 0 → Fin S32768.rank)
  reducesTo_S32768_S_d0 : S32768.ReducesTo [0] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S64x1 : S_.BroadcastsInDim S64x1 (![] : Fin 0 → Fin S64x1.rank)
  reducesTo_S64x1_S_d0_1 : S64x1.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S2x64x64 : S_.BroadcastsInDim S2x64x64 (![] : Fin 0 → Fin S2x64x64.rank)
  reducesTo_S2x64x64_S_d0_1_2 : S2x64x64.ReducesTo [0, 1, 2] S_
  bcast_S_S2x64 : S_.BroadcastsInDim S2x64 (![] : Fin 0 → Fin S2x64.rank)
  reducesTo_S2x64_S_d0_1 : S2x64.ReducesTo [0, 1] S_

variable [Facts]

def fn_part2 {F : FTy → Type} [FloatOps F] (main_arg8 : FVec F S2x64 .f32) (main_arg9 : FVec F S2x64x64 .f32) (main_arg10 : FVec F S2x64 .f32) (main_v33 : IVec S_ 1) : IVec S_ 1 :=
  let main_v34 : FVec F S2x64 .f32 := Host.absf main_arg8
  let main_cst_12 : FVec F S_ .f32 := constant S_ .f32 0x7F800000#32
  let main_v35 : FVec F S2x64 .f32 := broadcastInDim S2x64 ![] bcast_S_S2x64 main_cst_12
  let main_v36 : IVec S2x64 1 := cmpf .olt main_v34 main_v35
  let main_c_13 : IVec S_ 1 := constantI S_ 1 1#1
  let main_v37 : IVec S_ 1 := (fun x v => Host.reduce IntOp.andi x v reducesTo_S2x64_S_d0_1 h_S_) main_v36 main_c_13
  let main_v38 : IVec S_ 1 := andi main_v33 main_v37
  let main_v39 : FVec F S2x64x64 .f32 := Host.absf main_arg9
  let main_cst_14 : FVec F S_ .f32 := constant S_ .f32 0x7F800000#32
  let main_v40 : FVec F S2x64x64 .f32 := broadcastInDim S2x64x64 ![] bcast_S_S2x64x64 main_cst_14
  let main_v41 : IVec S2x64x64 1 := cmpf .olt main_v39 main_v40
  let main_c_15 : IVec S_ 1 := constantI S_ 1 1#1
  let main_v42 : IVec S_ 1 := (fun x v => Host.reduce IntOp.andi x v reducesTo_S2x64x64_S_d0_1_2 h_S_) main_v41 main_c_15
  let main_v43 : IVec S_ 1 := andi main_v38 main_v42
  let main_v44 : FVec F S2x64 .f32 := Host.absf main_arg10
  let main_cst_16 : FVec F S_ .f32 := constant S_ .f32 0x7F800000#32
  let main_v45 : FVec F S2x64 .f32 := broadcastInDim S2x64 ![] bcast_S_S2x64 main_cst_16
  let main_v46 : IVec S2x64 1 := cmpf .olt main_v44 main_v45
  let main_c_17 : IVec S_ 1 := constantI S_ 1 1#1
  let main_v47 : IVec S_ 1 := (fun x v => Host.reduce IntOp.andi x v reducesTo_S2x64_S_d0_1 h_S_) main_v46 main_c_17
  let main_v48 : IVec S_ 1 := andi main_v43 main_v47
  main_v48

def fn_part1 {F : FTy → Type} [FloatOps F] (main_arg5 : FVec F S64x64 .f32) (main_arg6 : FVec F S64 .f32) (main_arg7 : FVec F S2x64x64 .f32) (main_arg8 : FVec F S2x64 .f32) (main_arg9 : FVec F S2x64x64 .f32) (main_arg10 : FVec F S2x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S2x64x64 .f32 := Host.absf main_arg7
  let main_cst_10 : FVec F S_ .f32 := constant S_ .f32 0x7F800000#32
  let main_v30 : FVec F S2x64x64 .f32 := broadcastInDim S2x64x64 ![] bcast_S_S2x64x64 main_cst_10
  let main_v31 : IVec S2x64x64 1 := cmpf .olt main_v29 main_v30
  let main_c_11 : IVec S_ 1 := constantI S_ 1 1#1
  let main_v32 : IVec S_ 1 := (fun x v => Host.reduce IntOp.andi x v reducesTo_S2x64x64_S_d0_1_2 h_S_) main_v31 main_c_11
  let main_v33 : IVec S_ 1 := andi main_v28 main_v32
  fn_part2 (F := F) main_arg8 main_arg9 main_arg10 main_v33

def fn {F : FTy → Type} [FloatOps F] (main_arg0 : IVec S32768x50 32) (main_arg1 : FVec F S32768 .f32) (main_arg2 : FVec F S100000x64 .f32) (main_arg3 : FVec F S64x1 .f32) (main_arg4 : FVec F S64 .f32) (main_arg5 : FVec F S64x64 .f32) (main_arg6 : FVec F S64 .f32) (main_arg7 : FVec F S2x64x64 .f32) (main_arg8 : FVec F S2x64 .f32) (main_arg9 : FVec F S2x64x64 .f32) (main_arg10 : FVec F S2x64 .f32) : IVec S_ 1 :=
  let main_v0 : FVec F S32768 .f32 := Host.absf main_arg1
  let main_cst : FVec F S_ .f32 := constant S_ .f32 0x7F800000#32
  let main_v1 : FVec F S32768 .f32 := broadcastInDim S32768 ![] bcast_S_S32768 main_cst
  let main_v2 : IVec S32768 1 := cmpf .olt main_v0 main_v1
  let main_c : IVec S_ 1 := constantI S_ 1 1#1
  let main_v3 : IVec S_ 1 := (fun x v => Host.reduce IntOp.andi x v reducesTo_S32768_S_d0 h_S_) main_v2 main_c
  let main_v4 : FVec F S100000x64 .f32 := Host.absf main_arg2
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x1 .f32 := Host.absf main_arg3
  let main_cst_2 : FVec F S_ .f32 := constant S_ .f32 0x7F800000#32
  let main_v10 : FVec F S64x1 .f32 := broadcastInDim S64x1 ![] bcast_S_S64x1 main_cst_2
  let main_v11 : IVec S64x1 1 := cmpf .olt main_v9 main_v10
  let main_c_3 : IVec S_ 1 := constantI S_ 1 1#1
  let main_v12 : IVec S_ 1 := (fun x v => Host.reduce IntOp.andi x v reducesTo_S64x1_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S32768x50 : Shape := ⟨2, ![32768, 50]⟩
abbrev S32768 : Shape := ⟨1, ![32768]⟩
abbrev S100000x64 : Shape := ⟨2, ![100000, 64]⟩
abbrev S64x1 : Shape := ⟨2, ![64, 1]⟩
abbrev S64 : Shape := ⟨1, ![64]⟩
abbrev S64x64 : Shape := ⟨2, ![64, 64]⟩
abbrev S2x64x64 : Shape := ⟨3, ![2, 64, 64]⟩
abbrev S2x64 : Shape := ⟨2, ![2, 64]⟩
abbrev S_ : Shape := ⟨0, ![]⟩
abbrev S32768x50x1 : Shape := ⟨3, ![32768, 50, 1]⟩
abbrev S32768x50x64 : Shape := ⟨3, ![32768, 50, 64]⟩
abbrev S32768x1 : Shape := ⟨2, ![32768, 1]⟩
abbrev S1x64 : Shape := ⟨2, ![1, 64]⟩
abbrev S32768x64 : Shape := ⟨2, ![32768, 64]⟩
abbrev S512x50x64 : Shape := ⟨3, ![512, 50, 64]⟩
abbrev S512x1 : Shape := ⟨2, ![512, 1]⟩
abbrev S512x64 : Shape := ⟨2, ![512, 64]⟩
abbrev S25600x64 : Shape := ⟨2, ![25600, 64]⟩
abbrev S1x1x64 : Shape := ⟨3, ![1, 1, 64]⟩
abbrev S512x1x64 : Shape := ⟨3, ![512, 1, 64]⟩
abbrev S1x64x64 : Shape := ⟨3, ![1, 64, 64]⟩

abbrev nBuf : Space → Nat
  | .hbm => 25
  | .vmem => 14
  | .smem => 0
  | _ => 0

abbrev bufTy : (tb : Table) → Fin (tcTables nBuf tb) → BufTy
  | .hbm, ⟨0, _⟩ => ⟨S32768x50, .i32⟩
  | .hbm, ⟨1, _⟩ => ⟨S32768, .f32⟩
  | .hbm, ⟨2, _⟩ => ⟨S100000x64, .f32⟩
  | .hbm, ⟨3, _⟩ => ⟨S64x1, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S2x64x64, .f32⟩
  | .hbm, ⟨8, _⟩ => ⟨S2x64, .f32⟩
  | .hbm, ⟨9, _⟩ => ⟨S2x64x64, .f32⟩
  | .hbm, ⟨10, _⟩ => ⟨S2x64, .f32⟩
  | .hbm, ⟨11, _⟩ => ⟨S_, .i32⟩
  | .hbm, ⟨12, _⟩ => ⟨S32768x50, .i32⟩
  | .hbm, ⟨13, _⟩ => ⟨S32768x50, .i1⟩
  | .hbm, ⟨14, _⟩ => ⟨S_, .i32⟩
  | .hbm, ⟨15, _⟩ => ⟨S32768x50, .i32⟩
  | .hbm, ⟨16, _⟩ => ⟨S32768x50, .i32⟩
  | .hbm, ⟨17, _⟩ => ⟨S32768x50, .i32⟩
  | .hbm, ⟨18, _⟩ => ⟨S32768x50x1, .i32⟩
  | .hbm, ⟨19, _⟩ => ⟨S32768x50x64, .f32⟩
  | .hbm, ⟨20, _⟩ => ⟨S32768x50x64, .bf16⟩
  | .hbm, ⟨21, _⟩ => ⟨S32768x1, .f32⟩
  | .hbm, ⟨22, _⟩ => ⟨S1x64, .f32⟩
  | .hbm, ⟨23, _⟩ => ⟨S1x64, .f32⟩
  | .hbm, ⟨24, _⟩ => ⟨S32768x64, .f32⟩
  | .local _ .vmem, ⟨0, _⟩ => ⟨S512x50x64, .bf16⟩
  | .local _ .vmem, ⟨1, _⟩ => ⟨S512x50x64, .bf16⟩
  | .local _ .vmem, ⟨2, _⟩ => ⟨S512x1, .f32⟩
  | .local _ .vmem, ⟨3, _⟩ => ⟨S512x1, .f32⟩
  | .local _ .vmem, ⟨4, _⟩ => ⟨S64x1, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S2x64x64, .f32⟩
  | .local _ .vmem, ⟨9, _⟩ => ⟨S2x64, .f32⟩
  | .local _ .vmem, ⟨10, _⟩ => ⟨S2x64x64, .f32⟩
  | .local _ .vmem, ⟨11, _⟩ => ⟨S2x64, .f32⟩
  | .local _ .vmem, ⟨12, _⟩ => ⟨S512x64, .f32⟩
  | .local _ .vmem, ⟨13, _⟩ => ⟨S512x64, .f32⟩
  | _, _ => ⟨S32768x50, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x50x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S_S32768x50 : S_.BroadcastsInDim S32768x50 (![] : Fin 0 → Fin S32768x50.rank)
  bcast_S32768x50_S32768x50x1_0_1 : S32768x50.BroadcastsInDim S32768x50x1 (![0, 1] : Fin 2 → Fin S32768x50x1.rank)
  bitsLt_bf16_f32 : FTy.bits .bf16 < FTy.bits .f32
  shapeCasts_S32768_S32768x1 : S32768.ShapeCasts S32768x1
  shapeCasts_S64_S1x64 : S64.ShapeCasts S1x64
  inb_S512x50x64_S512x50x64_0_0_0 : ∀ a, (![0, 0, 0] : Fin 3 → Nat) a + S512x50x64.size a ≤ S512x50x64.size a
  h_S512x50x64 : 0 < S512x50x64.numel
  shapeCasts_S512x50x64_S512x50x64 : S512x50x64.ShapeCasts S512x50x64
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S64x1_S64x1_0_0 : ∀ a, (![0, 0] : Fin 2 → Nat) a + S64x1.size a ≤ S64x1.size a
  h_S64x1 : 0 < S64x1.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S64x1_S64 : S64x1.ShapeCasts S64
  broadcasts_S512x1_S512x64 : S512x1.Broadcasts S512x64
  broadcasts_S1x64_S512x64 : S1x64.Broadcasts S512x64
  inb_S64x64_S64x64_0_0 : ∀ a, (![0, 0] : Fin 2 → Nat) a + S64x64.size a ≤ S64x64.size a
  h_S64x64 : 0 < S64x64.numel
  shapeCasts_S512x50x64_S25600x64 : S512x50x64.ShapeCasts S25600x64
  shapeCasts_S25600x64_S512x50x64 : S25600x64.ShapeCasts S512x50x64
  reduces_S512x50x64_S512x64 : S512x50x64.Reduces [1] S512x64
  shapeCasts_S1x64_S1x1x64 : S1x64.ShapeCasts S1x1x64
  shapeCasts_S512x64_S512x1x64 : S512x64.ShapeCasts S512x1x64
  broadcasts_S512x1x64_S512x50x64 : S512x1x64.Broadcasts S512x50x64
  broadcasts_S1x1x64_S512x50x64 : S1x1x64.Broadcasts S512x50x64
  inb_S2x64x64_S2x64x64_0_0_0 : ∀ a, (![0, 0, 0] : Fin 3 → Nat) a + S2x64x64.size a ≤ S2x64x64.size a
  h_S2x64x64 : 0 < S2x64x64.numel
  inb_S2x64_S2x64_0_0 : ∀ a, (![0, 0] : Fin 2 → Nat) a + S2x64.size a ≤ S2x64.size a
  h_S2x64 : 0 < S2x64.numel
  slices_S2x64x64_o0_0_0_S1x64x64 : S2x64x64.Slices ![0, 0, 0] S1x64x64
  shapeCasts_S1x64x64_S64x64 : S1x64x64.ShapeCasts S64x64
  transposes_S64x64_p1_0_S64x64 : S64x64.Transposes [1, 0] S64x64
  slices_S2x64_o0_0_S1x64 : S2x64.Slices ![0, 0] S1x64
  shapeCasts_S1x64_S64 : S1x64.ShapeCasts S64
  slices_S2x64x64_o1_0_0_S1x64x64 : S2x64x64.Slices ![1, 0, 0] S1x64x64
  slices_S2x64_o1_0_S1x64 : S2x64.Slices ![1, 0] S1x64
  inb_S512x64_S512x64_0_0 : ∀ a, (![0, 0] : Fin 2 → Nat) a + S512x64.size a ≤ S512x64.size a
  h_S512x64 : 0 < S512x64.numel
  gather_S100000x64_S32768x50x1_S32768x50x64_2_0_n_n_0_2_164_wf : GatherDims.WF S100000x64 S32768x50x1 S32768x50x64 [2] [0] [] [0] [] 2 ![1, 64]
  dot_S25600x64_S64x64_S25600x64_1_0_0_1_n_n_wf : DotDims.WF S25600x64 S64x64 S25600x64 [1] [0] [0] [1] [] []
  dot_S512x64_S64x64_S512x64_1_0_0_1_n_n_wf : DotDims.WF S512x64 S64x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x50x64.size a ≤ S32768x50x64.size a
  hwx0_0 : ∀ i : grid0.Coords, EltTy.bits .bf16 = 32 ∨ (Rect.block (s := S32768x50x64) S512x50x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S32768x1.size a
  hwx0_1 : ∀ i : grid0.Coords, EltTy.bits .f32 = 32 ∨ (Rect.block (s := S32768x1) S512x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x64x64.size a ≤ S2x64x64.size a
  hwx0_6 : ∀ i : grid0.Coords, EltTy.bits .f32 = 32 ∨ (Rect.block (s := S2x64x64) S2x64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2x64.size a ≤ S2x64.size a
  hwx0_7 : ∀ i : grid0.Coords, EltTy.bits .f32 = 32 ∨ (Rect.block (s := S2x64) S2x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2x64x64.size a ≤ S2x64x64.size a
  hwx0_8 : ∀ i : grid0.Coords, EltTy.bits .f32 = 32 ∨ (Rect.block (s := S2x64x64) S2x64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2x64.size a ≤ S2x64.size a
  hwx0_9 : ∀ i : grid0.Coords, EltTy.bits .f32 = 32 ∨ (Rect.block (s := S2x64) S2x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x64.size a ≤ S32768x64.size a
  hwx0_10 : ∀ i : grid0.Coords, EltTy.bits .f32 = 32 ∨ (Rect.block (s := S32768x64) S512x64.size (cc0_transform_10 i) (hinb0_10 i)).WholeWords (EltTy.packing .f32)

variable [Facts₀]

def gather_S100000x64_S32768x50x1_S32768x50x64_2_0_n_n_0_2_164 : GatherDims S100000x64 S32768x50x1 S32768x50x64 where
  offsetDims := [2]
  collapsedSliceDims := [0]
  operandBatchingDims := []
  startIndicesBatchingDims := []
  startIndexMap := [0]
  indexVectorDim := 2
  sliceSizes := ![1, 64]
  wf := gather_S100000x64_S32768x50x1_S32768x50x64_2_0_n_n_0_2_164_wf
def dot_S25600x64_S64x64_S25600x64_1_0_0_1_n_n : DotDims S25600x64 S64x64 S25600x64 where
  lhsContracting := [1]
  rhsContracting := [0]
  lhsNonContracting := [0]
  rhsNonContracting := [1]
  lhsBatch := []
  rhsBatch := []
  wf := dot_S25600x64_S64x64_S25600x64_1_0_0_1_n_n_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf

abbrev win0_0 : Pipeline.Window sig grid0 :=
  Pipeline.Window.ofSpec (Memref.whole main_v7) S512x50x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S2x64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S2x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S2x64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S2x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S512x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S32768x50 : Shape := ⟨2, ![32768, 50]⟩
abbrev S32768 : Shape := ⟨1, ![32768]⟩
abbrev S100000x64 : Shape := ⟨2, ![100000, 64]⟩
abbrev S64x1 : Shape := ⟨2, ![64, 1]⟩
abbrev S64 : Shape := ⟨1, ![64]⟩
abbrev S64x64 : Shape := ⟨2, ![64, 64]⟩
abbrev S2x64x64 : Shape := ⟨3, ![2, 64, 64]⟩
abbrev S2x64 : Shape := ⟨2, ![2, 64]⟩
abbrev S_ : Shape := ⟨0, ![]⟩
abbrev S32768x50x1 : Shape := ⟨3, ![32768, 50, 1]⟩
abbrev S32768x50x64 : Shape := ⟨3, ![32768, 50, 64]⟩
abbrev S32768x1 : Shape := ⟨2, ![32768, 1]⟩
abbrev S1x64 : Shape := ⟨2, ![1, 64]⟩
abbrev S32768x64 : Shape := ⟨2, ![32768, 64]⟩
abbrev S32768x1x64 : Shape := ⟨3, ![32768, 1, 64]⟩
abbrev S32768x51x64 : Shape := ⟨3, ![32768, 51, 64]⟩
abbrev S1x1x64 : Shape := ⟨3, ![1, 1, 64]⟩
abbrev S1x64x64 : Shape := ⟨3, ![1, 64, 64]⟩

abbrev nBuf : Space → Nat
  | .hbm => 113
  | .vmem => 0
  | .smem => 0
  | _ => 0

abbrev bufTy : (tb : Table) → Fin (tcTables nBuf tb) → BufTy
  | .hbm, ⟨0, _⟩ => ⟨S32768x50, .i32⟩
  | .hbm, ⟨1, _⟩ => ⟨S32768, .f32⟩
  | .hbm, ⟨2, _⟩ => ⟨S100000x64, .f32⟩
  | .hbm, ⟨3, _⟩ => ⟨S64x1, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S2x64x64, .f32⟩
  | .hbm, ⟨8, _⟩ => ⟨S2x64, .f32⟩
  | .hbm, ⟨9, _⟩ => ⟨S2x64x64, .f32⟩
  | .hbm, ⟨10, _⟩ => ⟨S2x64, .f32⟩
  | .hbm, ⟨11, _⟩ => ⟨S_, .i32⟩
  | .hbm, ⟨12, _⟩ => ⟨S32768x50, .i32⟩
  | .hbm, ⟨13, _⟩ => ⟨S32768x50, .i1⟩
  | .hbm, ⟨14, _⟩ => ⟨S_, .i32⟩
  | .hbm, ⟨15, _⟩ => ⟨S32768x50, .i32⟩
  | .hbm, ⟨16, _⟩ => ⟨S32768x50, .i32⟩
  | .hbm, ⟨17, _⟩ => ⟨S32768x50, .i32⟩
  | .hbm, ⟨18, _⟩ => ⟨S32768x50x1, .i32⟩
  | .hbm, ⟨19, _⟩ => ⟨S32768x50x64, .f32⟩
  | .hbm, ⟨20, _⟩ => ⟨S32768x1, .f32⟩
  | .hbm, ⟨21, _⟩ => ⟨S64, .f32⟩
  | .hbm, ⟨22, _⟩ => ⟨S1x64, .f32⟩
  | .hbm, ⟨23, _⟩ => ⟨S32768x64, .f32⟩
  | .hbm, ⟨24, _⟩ => ⟨S32768x64, .f32⟩
  | .hbm, ⟨25, _⟩ => ⟨S32768x64, .f32⟩
  | .hbm, ⟨26, _⟩ => ⟨S1x64, .f32⟩
  | .hbm, ⟨27, _⟩ => ⟨S32768x64, .f32⟩
  | .hbm, ⟨28, _⟩ => ⟨S32768x64, .f32⟩
  | .hbm, ⟨29, _⟩ => ⟨S32768x1x64, .f32⟩
  | .hbm, ⟨30, _⟩ => ⟨S32768x51x64, .f32⟩
  | .hbm, ⟨31, _⟩ => ⟨S32768x51x64, .f32⟩
  | .hbm, ⟨32, _⟩ => ⟨S_, .f32⟩
  | .hbm, ⟨33, _⟩ => ⟨S32768x64, .f32⟩
  | .hbm, ⟨34, _⟩ => ⟨S32768x1x64, .f32⟩
  | .hbm, ⟨35, _⟩ => ⟨S_, .f32⟩
  | .hbm, ⟨36, _⟩ => ⟨S32768x51x64, .f32⟩
  | .hbm, ⟨37, _⟩ => ⟨S32768x51x64, .f32⟩
  | .hbm, ⟨38, _⟩ => ⟨S32768x51x64, .f32⟩
  | .hbm, ⟨39, _⟩ => ⟨S32768x51x64, .f32⟩
  | .hbm, ⟨40, _⟩ => ⟨S_, .f32⟩
  | .hbm, ⟨41, _⟩ => ⟨S32768x51x64, .f32⟩
  | .hbm, ⟨42, _⟩ => ⟨S32768x51x64, .f32⟩
  | .hbm, ⟨43, _⟩ => ⟨S1x1x64, .f32⟩
  | .hbm, ⟨44, _⟩ => ⟨S32768x51x64, .f32⟩
  | .hbm, ⟨45, _⟩ => ⟨S32768x51x64, .f32⟩
  | .hbm, ⟨46, _⟩ => ⟨S_, .f32⟩
  | .hbm, ⟨47, _⟩ => ⟨S32768x51x64, .f32⟩
  | .hbm, ⟨48, _⟩ => ⟨S32768x51x64, .f32⟩
  | .hbm, ⟨49, _⟩ => ⟨S_, .f32⟩
  | .hbm, ⟨50, _⟩ => ⟨S32768x64, .f32⟩
  | .hbm, ⟨51, _⟩ => ⟨S_, .f32⟩
  | .hbm, ⟨52, _⟩ => ⟨S32768x64, .f32⟩
  | .hbm, ⟨53, _⟩ => ⟨S32768x64, .f32⟩
  | .hbm, ⟨54, _⟩ => ⟨S1x64x64, .f32⟩
  | .hbm, ⟨55, _⟩ => ⟨S64x64, .f32⟩
  | .hbm, ⟨56, _⟩ => ⟨S64x64, .f32⟩
  | .hbm, ⟨57, _⟩ => ⟨S32768x64, .f32⟩
  | .hbm, ⟨58, _⟩ => ⟨S1x64, .f32⟩
  | .hbm, ⟨59, _⟩ => ⟨S64, .f32⟩
  | .hbm, ⟨60, _⟩ => ⟨S1x64, .f32⟩
  | .hbm, ⟨61, _⟩ => ⟨S32768x64, .f32⟩
  | .hbm, ⟨62, _⟩ => ⟨S32768x64, .f32⟩
  | .hbm, ⟨63, _⟩ => ⟨S_, .f32⟩
  | .hbm, ⟨64, _⟩ => ⟨S32768x64, .f32⟩
  | .hbm, ⟨65, _⟩ => ⟨S32768x64, .f32⟩
  | .hbm, ⟨66, _⟩ => ⟨S1x64x64, .f32⟩
  | .hbm, ⟨67, _⟩ => ⟨S64x64, .f32⟩
  | .hbm, ⟨68, _⟩ => ⟨S64x64, .f32⟩
  | .hbm, ⟨69, _⟩ => ⟨S32768x64, .f32⟩
  | .hbm, ⟨70, _⟩ => ⟨S1x64, .f32⟩
  | .hbm, ⟨71, _⟩ => ⟨S64, .f32⟩
  | .hbm, ⟨72, _⟩ => ⟨S1x64, .f32⟩
  | .hbm, ⟨73, _⟩ => ⟨S32768x64, .f32⟩
  | .hbm, ⟨74, _⟩ => ⟨S32768x64, .f32⟩
  | .hbm, ⟨75, _⟩ => ⟨S_, .f32⟩
  | .hbm, ⟨76, _⟩ => ⟨S32768x64, .f32⟩
  | .hbm, ⟨77, _⟩ => ⟨S32768x50x64, .f32⟩
  | .hbm, ⟨78, _⟩ => ⟨S_, .f32⟩
  | .hbm, ⟨79, _⟩ => ⟨S32768x64, .f32⟩
  | .hbm, ⟨80, _⟩ => ⟨S32768x64, .f32⟩
  | .hbm, ⟨81, _⟩ => ⟨S32768x64, .f32⟩
  | .hbm, ⟨82, _⟩ => ⟨S_, .f32⟩
  | .hbm, ⟨83, _⟩ => ⟨S32768x64, .f32⟩
  | .hbm, ⟨84, _⟩ => ⟨S32768x64, .f32⟩
  | .hbm, ⟨85, _⟩ => ⟨S1x64x64, .f32⟩
  | .hbm, ⟨86, _⟩ => ⟨S64x64, .f32⟩
  | .hbm, ⟨87, _⟩ => ⟨S64x64, .f32⟩
  | .hbm, ⟨88, _⟩ => ⟨S32768x64, .f32⟩
  | .hbm, ⟨89, _⟩ => ⟨S1x64, .f32⟩
  | .hbm, ⟨90, _⟩ => ⟨S64, .f32⟩
  | .hbm, ⟨91, _⟩ => ⟨S1x64, .f32⟩
  | .hbm, ⟨92, _⟩ => ⟨S32768x64, .f32⟩
  | .hbm, ⟨93, _⟩ => ⟨S32768x64, .f32⟩
  | .hbm, ⟨94, _⟩ => ⟨S_, .f32⟩
  | .hbm, ⟨95, _⟩ => ⟨S32768x64, .f32⟩
  | .hbm, ⟨96, _⟩ => ⟨S32768x64, .f32⟩
  | .hbm, ⟨97, _⟩ => ⟨S1x64x64, .f32⟩
  | .hbm, ⟨98, _⟩ => ⟨S64x64, .f32⟩
  | .hbm, ⟨99, _⟩ => ⟨S64x64, .f32⟩
  | .hbm, ⟨100, _⟩ => ⟨S32768x64, .f32⟩
  | .hbm, ⟨101, _⟩ => ⟨S1x64, .f32⟩
  | .hbm, ⟨102, _⟩ => ⟨S64, .f32⟩
  | .hbm, ⟨103, _⟩ => ⟨S1x64, .f32⟩
  | .hbm, ⟨104, _⟩ => ⟨S32768x64, .f32⟩
  | .hbm, ⟨105, _⟩ => ⟨S32768x64, .f32⟩
  | .hbm, ⟨106, _⟩ => ⟨S_, .f32⟩
  | .hbm, ⟨107, _⟩ => ⟨S32768x64, .f32⟩
  | .hbm, ⟨108, _⟩ => ⟨S32768x64, .f32⟩
  | .hbm, ⟨109, _⟩ => ⟨S_, .f32⟩
  | .hbm, ⟨110, _⟩ => ⟨S32768x64, .f32⟩
  | .hbm, ⟨111, _⟩ => ⟨S32768x64, .f32⟩
  | .hbm, ⟨112, _⟩ => ⟨S32768x64, .f32⟩
  | _, _ => ⟨S32768x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call0_cst : Ref sig .tc := ⟨.hbm, 46, rfl⟩
abbrev main_call0_v0 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_call1_cst : Ref sig .tc := ⟨.hbm, 63, rfl⟩
abbrev main_call1_v0 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_5 : Ref sig .tc := ⟨.hbm, 75, rfl⟩
abbrev main_v53 : Ref sig .tc := ⟨.hbm, 76, rfl⟩
abbrev main_v54 : Ref sig .tc := ⟨.hbm, 77, rfl⟩
abbrev main_cst_6 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_7 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_call2_cst : Ref sig .tc := ⟨.hbm, 94, rfl⟩
abbrev main_call2_v0 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_8 : Ref sig .tc := ⟨.hbm, 106, rfl⟩
abbrev main_v79 : Ref sig .tc := ⟨.hbm, 107, rfl⟩
abbrev main_v80 : Ref sig .tc := ⟨.hbm, 108, rfl⟩
abbrev main_cst_9 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩

abbrev nD : Nat := 1
abbrev τ : Topo := Topo.v7x

variable {F : FTy → Type} [FloatOps F]

class Facts₀ : Prop where
  bcast_S_S32768x50 : S_.BroadcastsInDim S32768x50 (![] : Fin 0 → Fin S32768x50.rank)
  bcast_S32768x50_S32768x50x1_0_1 : S32768x50.BroadcastsInDim S32768x50x1 (![0, 1] : Fin 2 → Fin S32768x50x1.rank)
  bcast_S32768_S32768x1_0 : S32768.BroadcastsInDim S32768x1 (![0] : Fin 1 → Fin S32768x1.rank)
  shapeCasts_S64x1_S64 : S64x1.ShapeCasts S64
  bcast_S64_S1x64_1 : S64.BroadcastsInDim S1x64 (![1] : Fin 1 → Fin S1x64.rank)
  bcast_S32768x1_S32768x64_0_1 : S32768x1.BroadcastsInDim S32768x64 (![0, 1] : Fin 2 → Fin S32768x64.rank)
  bcast_S1x64_S32768x64_0_1 : S1x64.BroadcastsInDim S32768x64 (![0, 1] : Fin 2 → Fin S32768x64.rank)
  bcast_S32768x64_S32768x1x64_0_2 : S32768x64.BroadcastsInDim S32768x1x64 (![0, 2] : Fin 2 → Fin S32768x1x64.rank)
  concatenates_S32768x50x64_S32768x1x64_S32768x51x64_d1 : Shape.Concatenates [S32768x50x64, S32768x1x64] S32768x51x64 1
  reducesTo_S32768x51x64_S32768x64_d1 : S32768x51x64.ReducesTo [1] S32768x64
  h_S_ : 0 < S_.numel
  bcast_S_S32768x51x64 : S_.BroadcastsInDim S32768x51x64 (![] : Fin 0 → Fin S32768x51x64.rank)
  bcast_S32768x1x64_S32768x51x64_0_1_2 : S32768x1x64.BroadcastsInDim S32768x51x64 (![0, 1, 2] : Fin 3 → Fin S32768x51x64.rank)
  bcast_S64_S1x1x64_2 : S64.BroadcastsInDim S1x1x64 (![2] : Fin 1 → Fin S1x1x64.rank)
  bcast_S1x1x64_S32768x51x64_0_1_2 : S1x1x64.BroadcastsInDim S32768x51x64 (![0, 1, 2] : Fin 3 → Fin S32768x51x64.rank)
  bcast_S_S32768x64 : S_.BroadcastsInDim S32768x64 (![] : Fin 0 → Fin S32768x64.rank)
  slices_S2x64x64_S1x64x64_0_0_0 : S2x64x64.Slices ![0, 0, 0] S1x64x64
  shapeCasts_S1x64x64_S64x64 : S1x64x64.ShapeCasts S64x64
  transposes_S64x64_S64x64_1_0 : S64x64.Transposes [1, 0] S64x64
  slices_S2x64_S1x64_0_0 : S2x64.Slices ![0, 0] S1x64
  shapeCasts_S1x64_S64 : S1x64.ShapeCasts S64
  slices_S2x64x64_S1x64x64_1_0_0 : S2x64x64.Slices ![1, 0, 0] S1x64x64
  slices_S2x64_S1x64_1_0 : S2x64.Slices ![1, 0] S1x64
  reducesTo_S32768x50x64_S32768x64_d1 : S32768x50x64.ReducesTo [1] S32768x64
  gather_S100000x64_S32768x50x1_S32768x50x64_2_0_n_n_0_2_164_wf : GatherDims.WF S100000x64 S32768x50x1 S32768x50x64 [2] [0] [] [0] [] 2 ![1, 64]
  dot_S32768x51x64_S64x64_S32768x51x64_2_0_01_1_n_n_wf : DotDims.WF S32768x51x64 S64x64 S32768x51x64 [2] [0] [0, 1] [1] [] []
  dot_S32768x64_S64x64_S32768x64_1_0_0_1_n_n_wf : DotDims.WF S32768x64 S64x64 S32768x64 [1] [0] [0] [1] [] []

variable [Facts₀]

def gather_S100000x64_S32768x50x1_S32768x50x64_2_0_n_n_0_2_164 : GatherDims S100000x64 S32768x50x1 S32768x50x64 where
  offsetDims := [2]
  collapsedSliceDims := [0]
  operandBatchingDims := []
  startIndicesBatchingDims := []
  startIndexMap := [0]
  indexVectorDim := 2
  sliceSizes := ![1, 64]
  wf := gather_S100000x64_S32768x50x1_S32768x50x64_2_0_n_n_0_2_164_wf
def dot_S32768x51x64_S64x64_S32768x51x64_2_0_01_1_n_n : DotDims S32768x51x64 S64x64 S32768x51x64 where
  lhsContracting := [2]
  rhsContracting := [0]
  lhsNonContracting := [0, 1]
  rhsNonContracting := [1]
  lhsBatch := []
  rhsBatch := []
  wf := dot_S32768x51x64_S64x64_S32768x51x64_2_0_01_1_n_n_wf
def dot_S32768x64_S64x64_S32768x64_1_0_0_1_n_n : DotDims S32768x64 S64x64 S32768x64 where
  lhsContracting := [1]
  rhsContracting := [0]
  lhsNonContracting := [0]
  rhsNonContracting := [1]
  lhsBatch := []
  rhsBatch := []
  wf := dot_S32768x64_S64x64_S32768x64_1_0_0_1_n_n_wf

class Facts : Prop extends Facts₀ where

variable [Facts]
-- ==== Proof.Spec.lean ====
/-
  One batch row of the two-branch field mixer, as a function on the extended reals.

  A row holds 50 looked-up field embeddings `sh f` (each a vector of 64 features) and one number `nf`, which a rank-one
  linear map turns into a 51st field `ne d = nf · numW d + numb d`.

  Global branch. Every field is sent through one 64 × 64 matrix: `ss f e = Σ_d sh f d · gaW d e` for the looked-up fields,
  `sn e = Σ_d ne d · gaW d e` for the numeric one; `tot e` is the sum of all 51. Each field's accumulated value is
  `(tot e + 39 · own e) / 90 + gab e`; the rectified values are averaged over the 51 fields and sent through two dense
  layers `y ↦ y · Wᵀ + b` with a rectifier between them.

  Local branch. `half · ((Σ_f sh f d + ne d)² − Σ_f (sh f d)²)` — the square of the sum over all 51 fields less the squares
  of the 50 looked-up ones — through two dense layers of the same form.

  The result is `half · global + half · local`. The float constants are kept as the words both programs spell, so that
  nothing about them is ever evaluated; the sum over the 51 fields is written as the sum over the first 50 plus the
  last, which is how the kernel computes it and what the reference's sum over a 51-long axis splits into.
-/
import Idealize.ShloMosaic.PureOps.Ideal
import Idealize.ShloMosaic.Lib.ValueIdx

noncomputable section

namespace FieldMix

open Idealize.ShloMosaic Idealize.ShloMosaic.ValueIdx

/-- The words of 39, 90, 51, one half and zero. -/
abbrev w39 : EReal := Ideal.ofBits .f32 0x421C0000#32
abbrev w90 : EReal := Ideal.ofBits .f32 0x42B40000#32
abbrev w51 : EReal := Ideal.ofBits .f32 0x424C0000#32
abbrev whalf : EReal := Ideal.ofBits .f32 0x3F000000#32
abbrev wzero : EReal := Ideal.ofBits .f32 0x00000000#32

section Row

variable (sh : Fin 50 → Fin 64 → EReal) (nf : EReal) (numW numb : Fin 64 → EReal)
  (gaW : Fin 64 → Fin 64 → EReal) (gab : Fin 64 → EReal)

/-- The numeric field's embedding. -/
def numEmb (d : Fin 64) : EReal := nf * numW d + numb d

/-- A looked-up field through the accumulation matrix. -/
def supField (f : Fin 50) (e : Fin 64) : EReal := ∑ d : Fin 64, sh f d * gaW d e

/-- The numeric field through the accumulation matrix. -/
def supNum (e : Fin 64) : EReal := ∑ d : Fin 64, numEmb nf numW numb d * gaW d e

/-- The sum over all 51 fields of their images. -/
def supTotal (e : Fin 64) : EReal := (∑ f : Fin 50, supField sh gaW f e) + supNum nf numW numb gaW e

/-- A looked-up field's accumulated value. -/
def accField (f : Fin 50) (e : Fin 64) : EReal :=
  Ideal.div (supTotal sh nf numW numb gaW e + w39 * supField sh gaW f e) w90 + gab e

/-- The numeric field's accumulated value. -/
def accNum (e : Fin 64) : EReal :=
  Ideal.div (supTotal sh nf numW numb gaW e + w39 * supNum nf numW numb gaW e) w90 + gab e

/-- The mean over the 51 fields of the rectified accumulated values. -/
def globalIn (e : Fin 64) : EReal :=
  Ideal.div ((∑ f : Fin 50, max (accField sh nf numW numb gaW gab f e) wzero) + max (accNum sh nf numW numb gaW gab e) wzero) w51

/-- The pairwise-interaction term: half of (square of the sum over 51 fields less the squares of the 50 looked-up ones). -/
def localIn (d : Fin 64) : EReal :=
  whalf * (((∑ f : Fin 50, sh f d) + numEmb nf numW numb d) * ((∑ f : Fin 50, sh f d) + numEmb nf numW numb d)
    - ∑ f : Fin 50, sh f d * sh f d)

end Row

/-- A dense layer `y ↦ y · Wᵀ + b` at output feature `j`. -/
def dense (W : Fin 64 → Fin 64 → EReal) (b : Fin 64 → EReal) (y : Fin 64 → EReal) (j : Fin 64) : EReal :=
  (∑ k : Fin 64, y k * W j k) + b j

/-- Two dense layers with a rectifier between them. -/
def mlp (W0 W1 : Fin 64 → Fin 64 → EReal) (b0 b1 : Fin 64 → EReal) (y : Fin 64 → EReal) (j : Fin 64) : EReal :=
  dense W1 b1 (fun k => max (dense W0 b0 y k) wzero) j

/-- The row's result at feature `e`. -/
def rowOut (sh : Fin 50 → Fin 64 → EReal) (nf : EReal) (numW numb : Fin 64 → EReal)
    (gaW : Fin 64 → Fin 64 → EReal) (gab : Fin 64 → EReal)
    (gW0 gW1 : Fin 64 → Fin 64 → EReal) (gb0 gb1 : Fin 64 → EReal)
    (lW0 lW1 : Fin 64 → Fin 64 → EReal) (lb0 lb1 : Fin 64 → EReal) (e : Fin 64) : EReal :=
  whalf * mlp gW0 gW1 gb0 gb1 (globalIn sh nf numW numb gaW gab) e
    + whalf * mlp lW0 lW1 lb0 lb1 (localIn sh nf numW numb) e

/-- The whole result array [32768, 64]: row b is the row function of row b of the looked-up embeddings [32768, 50, 64] and
    of the numbers [32768], with the parameters as the programs take them — the numeric weight a column [64, 1], the
    accumulation matrix [64, 64], the two branches' layers stacked as [2, 64, 64] and [2, 64]. -/
def result (sh : (⟨3, ![32768, 50, 64]⟩ : Shape).Idx → EReal) (a1 : (⟨1, ![32768]⟩ : Shape).Idx → EReal)
    (a3 : (⟨2, ![64, 1]⟩ : Shape).Idx → EReal) (a4 : (⟨1, ![64]⟩ : Shape).Idx → EReal) (a5 : (⟨2, ![64, 64]⟩ : Shape).Idx → EReal)
    (a6 : (⟨1, ![64]⟩ : Shape).Idx → EReal) (a7 : (⟨3, ![2, 64, 64]⟩ : Shape).Idx → EReal) (a8 : (⟨2, ![2, 64]⟩ : Shape).Idx → EReal)
    (a9 : (⟨3, ![2, 64, 64]⟩ : Shape).Idx → EReal) (a10 : (⟨2, ![2, 64]⟩ : Shape).Idx → EReal) :
    (⟨2, ![32768, 64]⟩ : Shape).Idx → EReal := fun i =>
  rowOut (fun f d => sh (ix3 (i 0) f d)) (a1 (ix1 (i 0))) (fun d => a3 (ix2 d (0 : Fin 1))) (fun d => a4 (ix1 d))
    (fun d e => a5 (ix2 d e)) (fun e => a6 (ix1 e))
    (fun j k => a7 (ix3 (0 : Fin 2) j k)) (fun j k => a7 (ix3 (1 : Fin 2) j k)) (fun j => a8 (ix2 (0 : Fin 2) j)) (fun j => a8 (ix2 (1 : Fin 2) j))
    (fun j k => a9 (ix3 (0 : Fin 2) j k)) (fun j k => a9 (ix3 (1 : Fin 2) j k)) (fun j => a10 (ix2 (0 : Fin 2) j)) (fun j => a10 (ix2 (1 : Fin 2) j))
    (i 1)

end FieldMix

end
-- ==== Proof.LibBlockLayout.lean ====
/-
  Layout operations of a batch of matrices read at an entry, for generic extents.

  A kernel that works on a block of a rows, b nodes per row and c features per node moves between three spellings of it:
  the cube [a, b, c], the flat matrix [a·b, c] whose row p·b + k is node k of row p (what a matrix product takes), and
  per-row quantities [a, c] carried along the node axis through a unit middle axis [a, 1, c]. A shape cast keeps the
  row-major position, so each of these re-readings is an equation between two row-major positions; a broadcast reads the
  operand at the same coordinates with 0 on the operand's unit axes; a sum over the node axis at (p, q) is the sum over
  k of the entries (p, k, q). Nothing here uses arithmetic of the entries.
-/
import Idealize.ShloMosaic.PureOps.Ideal.Laws
import Idealize.ShloMosaic.Lib.ValueIdx
import Idealize.ShloMosaic.Lib.Pipeline.Value

noncomputable section

namespace BlockLayout

open Idealize.ShloMosaic Idealize.ShloMosaic.ValueIdx

variable {α : Type}

/-- Row p·b + k of the flat matrix is a row of it. -/
theorem flat_lt {a b n : ℕ} (hn : a * b = n) (p : Fin a) (k : Fin b) : p.val * b + k.val < n := by
  have hp := p.isLt
  have hk := k.isLt
  calc p.val * b + k.val < p.val * b + b := by omega
    _ = (p.val + 1) * b := by ring
    _ ≤ a * b := Nat.mul_le_mul_right b hp
    _ = n := hn

/-- The cube [a, b, c] cast to the flat matrix [n, c], n = a·b, reads at row p·b + k and column q the entry (p, k, q). -/
theorem shapeCast_abc_nc_apply {a b c n : ℕ} (x : (⟨3, ![a, b, c]⟩ : Shape).Idx → α)
    (h : (⟨3, ![a, b, c]⟩ : Shape).ShapeCasts ⟨2, ![n, c]⟩) (p : Fin a) (k : Fin b) (q : Fin c)
    (hlt : p.val * b + k.val < n) :
    shapeCast ⟨2, ![n, c]⟩ x h (ix2 (⟨p.val * b + k.val, hlt⟩ : Fin n) q) = x (ix3 p k q) :=
  shapeCast_apply x h _ _ (by
    rw [Shape.rowMajor_val_three, Shape.rowMajor_val_two]
    show (p.val * b + k.val) * c + q.val = (p.val * b + k.val) * c + q.val
    rfl)

/-- The flat matrix [n, c], n = a·b, cast to the cube [a, b, c] reads at (p, k, q) its row p·b + k at column q. -/
theorem shapeCast_nc_abc_apply {a b c n : ℕ} (hn : a * b = n) (y : (⟨2, ![n, c]⟩ : Shape).Idx → α)
    (h : (⟨2, ![n, c]⟩ : Shape).ShapeCasts ⟨3, ![a, b, c]⟩) (p : Fin a) (k : Fin b) (q : Fin c) :
    shapeCast ⟨3, ![a, b, c]⟩ y h (ix3 p k q) = y (ix2 (⟨p.val * b + k.val, flat_lt hn p k⟩ : Fin n) q) :=
  shapeCast_apply y h _ _ (by
    rw [Shape.rowMajor_val_three, Shape.rowMajor_val_two]
    show (p.val * b + k.val) * c + q.val = (p.val * b + k.val) * c + q.val
    rfl)

/-- A one-column matrix [n, 1], n = a·b, cast to [a, b] reads at (p, k) its row p·b + k. -/
theorem shapeCast_n1_ab_apply {a b n : ℕ} (hn : a * b = n) (y : (⟨2, ![n, 1]⟩ : Shape).Idx → α)
    (h : (⟨2, ![n, 1]⟩ : Shape).ShapeCasts ⟨2, ![a, b]⟩) (p : Fin a) (k : Fin b) :
    shapeCast ⟨2, ![a, b]⟩ y h (ix2 p k) = y (ix2 (⟨p.val * b + k.val, flat_lt hn p k⟩ : Fin n) (0 : Fin 1)) :=
  shapeCast_apply y h _ _ (by
    rw [Shape.rowMajor_val_two, Shape.rowMajor_val_two]
    show (p.val * b + k.val) * 1 + 0 = p.val * b + k.val
    omega)

/-- [a, 1, c] cast to [a, c] reads at (p, q) the entry (p, 0, q). -/
theorem shapeCast_a1c_ac_apply {a c : ℕ} (x : (⟨3, ![a, 1, c]⟩ : Shape).Idx → α)
    (h : (⟨3, ![a, 1, c]⟩ : Shape).ShapeCasts ⟨2, ![a, c]⟩) (p : Fin a) (q : Fin c) :
    shapeCast ⟨2, ![a, c]⟩ x h (ix2 p q) = x (ix3 p (0 : Fin 1) q) :=
  shapeCast_apply x h _ _ (by
    rw [Shape.rowMajor_val_three, Shape.rowMajor_val_two]
    show (p.val * 1 + 0) * c + q.val = p.val * c + q.val
    rw [Nat.mul_one, Nat.add_zero])

/-- [a, b] cast to [a, b, 1] reads at (p, k, u) the entry (p, k). -/
theorem shapeCast_ab_ab1_apply {a b : ℕ} (x : (⟨2, ![a, b]⟩ : Shape).Idx → α)
    (h : (⟨2, ![a, b]⟩ : Shape).ShapeCasts ⟨3, ![a, b, 1]⟩) (p : Fin a) (k : Fin b) (u : Fin 1) :
    shapeCast ⟨3, ![a, b, 1]⟩ x h (ix3 p k u) = x (ix2 p k) :=
  shapeCast_apply x h _ _ (by
    have hu : u.val = 0 := by omega
    rw [Shape.rowMajor_val_two, Shape.rowMajor_val_three]
    show p.val * b + k.val = (p.val * b + k.val) * 1 + u.val
    rw [hu, Nat.mul_one, Nat.add_zero])

/-- [a, b, 1] cast to [a, b] reads at (p, k) the entry (p, k, 0). -/
theorem shapeCast_ab1_ab_apply {a b : ℕ} (x : (⟨3, ![a, b, 1]⟩ : Shape).Idx → α)
    (h : (⟨3, ![a, b, 1]⟩ : Shape).ShapeCasts ⟨2, ![a, b]⟩) (p : Fin a) (k : Fin b) :
    shapeCast ⟨2, ![a, b]⟩ x h (ix2 p k) = x (ix3 p k (0 : Fin 1)) :=
  shapeCast_apply x h _ _ (by
    rw [Shape.rowMajor_val_three, Shape.rowMajor_val_two]
    show (p.val * b + k.val) * 1 + 0 = p.val * b + k.val
    rw [Nat.mul_one, Nat.add_zero])

/-- A column [c, 1] cast to the vector [c] reads at q the entry (q, 0). -/
theorem shapeCast_c1_c_apply {c : ℕ} (x : (⟨2, ![c, 1]⟩ : Shape).Idx → α)
    (h : (⟨2, ![c, 1]⟩ : Shape).ShapeCasts ⟨1, ![c]⟩) (q : Fin c) :
    shapeCast ⟨1, ![c]⟩ x h (ix1 q) = x (ix2 q (0 : Fin 1)) :=
  shapeCast_apply x h _ _ (by
    rw [Shape.rowMajor_val_two, Shape.rowMajor_val_one]
    show q.val * 1 + 0 = q.val
    rw [Nat.mul_one, Nat.add_zero])

/-- A vector [c] cast to [1, 1, c] reads at (u, v, q) the entry q. -/
theorem shapeCast_c_11c_apply {c : ℕ} (x : (⟨1, ![c]⟩ : Shape).Idx → α)
    (h : (⟨1, ![c]⟩ : Shape).ShapeCasts ⟨3, ![1, 1, c]⟩) (u v : Fin 1) (q : Fin c) :
    shapeCast ⟨3, ![1, 1, c]⟩ x h (ix3 u v q) = x (ix1 q) :=
  shapeCast_apply x h _ _ (by
    have hu : u.val = 0 := by omega
    have hv : v.val = 0 := by omega
    rw [Shape.rowMajor_val_one, Shape.rowMajor_val_three]
    show q.val = (u.val * 1 + v.val) * c + q.val
    simp only [hu, hv, Nat.zero_mul, Nat.zero_add])

/-- A per-row quantity [a, 1, c] broadcast along the node axis reads at (p, k, q) the entry (p, 0, q). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (k : Fin b) (q : Fin c) :
    broadcastTo ⟨3, ![a, b, c]⟩ v h (ix3 p k q) = v (ix3 p (0 : Fin 1) q) := by
  refine broadcastTo_apply v h (ix3 p k q) (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if c = 1 then 0 else q.val
    split
    · have := q.isLt; omega
    · rfl

/-- A per-node scalar [a, b, 1] broadcast along the feature axis reads at (p, k, q) the entry (p, k, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (k : Fin b) (q : Fin c) :
    broadcastTo ⟨3, ![a, b, c]⟩ v h (ix3 p k q) = v (ix3 p k (0 : Fin 1)) := by
  refine broadcastTo_apply v h (ix3 p k q) (ix3 p k (0 : Fin 1)) fun ax => ?_
  match ax with
  | ⟨0, _⟩ =>
    show p.val = if a = 1 then 0 else p.val
    split
    · have := p.isLt; omega
    · rfl
  | ⟨1, _⟩ =>
    show k.val = if b = 1 then 0 else k.val
    split
    · have := k.isLt; omega
    · rfl
  | ⟨2, _⟩ => rfl

/-- A feature vector [1, 1, c] broadcast over rows and nodes reads at (p, k, q) the entry (0, 0, q). -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (k : Fin b) (q : Fin c) :
    broadcastTo ⟨3, ![a, b, c]⟩ v h (ix3 p k q) = v (ix3 (0 : Fin 1) (0 : Fin 1) q) := by
  refine broadcastTo_apply v h (ix3 p k q) (ix3 (0 : Fin 1) (0 : Fin 1) q) fun ax => ?_
  match ax with
  | ⟨0, _⟩ => rfl
  | ⟨1, _⟩ => rfl
  | ⟨2, _⟩ =>
    show q.val = if c = 1 then 0 else q.val
    split
    · have := q.isLt; omega
    · rfl

/-- A column [a, 1] broadcast along the rows' entries reads at (p, k) the entry (p, 0). -/
theorem broadcastTo_a1_ab_apply {a b : ℕ} (v : (⟨2, ![a, 1]⟩ : Shape).Idx → α)
    (h : (⟨2, ![a, 1]⟩ : Shape).Broadcasts ⟨2, ![a, b]⟩) (p : Fin a) (k : Fin b) :
    broadcastTo ⟨2, ![a, b]⟩ v h (ix2 p k) = v (ix2 p (0 : Fin 1)) := by
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

/-- The sum over the node axis of a cube [a, b, c], from the zero word, at (p, q): the sum over k of the entries
    (p, k, q) (on the extended reals; the accumulator is the sum's neutral word and is left out). -/
theorem nodeSum_apply {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = FKind.add.neutral .f32 hφ) (p : Fin a) (q : Fin c) :
    multiReduction .add [1] ⟨2, ![a, c]⟩ src 0x00000000#32 h hφ hacc (ix2 p q) = ∑ k : Fin b, src (ix3 p k q) := by
  refine (Ideal.multiReduction_add_single src 0x00000000#32 h hφ hacc (ix2 p q)).trans ?_
  show ∑ k : Fin b, src (h.lift (ix2 p q) k) = ∑ k : Fin b, src (ix3 p k q)
  refine Finset.sum_congr rfl fun k _ => congrArg src (funext fun d => Fin.ext ?_)
  match d with
  | ⟨0, _⟩ => rfl
  | ⟨1, _⟩ => rfl
  | ⟨2, _⟩ => rfl

end BlockLayout

end
-- ==== Proof.LibPlainMatmul.lean ====
/-
  A plain matrix product read at an entry.

  At the exact instance a `tpu.matmul` into the zero accumulator is, at each output index, the sum over the dot's
  contraction index of the products of the operands at the indices the dimension numbers name. For the plainest
  dimension numbers — an M × K matrix times a K × N matrix, one contracted axis, no batch axis — the operand indices at
  output (y, j) and contraction coordinate k are (y, k) and (k, j), and the contraction index is its one coordinate; so
  the entry is the familiar `Σₖ a[y, k] · w[k, j]` over `Fin K`. The four coordinate facts are taken as hypotheses:
  for a concrete record each is one line (two by the record's own single-axis lemmas, two by unfolding the index
  function at a decided membership).
-/
import Idealize.ShloMosaic.PureOps.Ideal.Laws
import Idealize.ShloMosaic.Lib.ValueIdx

noncomputable section

namespace Cert.EdgeScore.Lib

open Idealize.ShloMosaic Idealize.ShloMosaic.ValueIdx

/-- Entry (y, j) of an M × K by K × N product accumulated into zero is `Σₖ a (y, k) · w (k, j)`, `k` over `Fin K`:
    the contraction index re-read as its one coordinate (`hr`, `hs`: one contracted axis of extent K), the operand
    indices by their coordinates (`hl0`, `hl1`, `hr0`, `hr1`). Nothing of real arithmetic is used, so it holds
    with infinite entries too. -/
theorem matmul_zero_ix2_apply {M K N : Nat} {φ₁ φ₂ : FTy}
    (d : DotDims ⟨2, ![M, K]⟩ ⟨2, ![K, N]⟩ ⟨2, ![M, N]⟩) (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (a : FVec Ideal ⟨2, ![M, K]⟩ φ₁) (w : FVec Ideal ⟨2, ![K, N]⟩ φ₂)
    (y : Fin M) (j : Fin N) :
    FloatOps.matmul d prec a w (constant ⟨2, ![M, N]⟩ .f32 0x00000000#32) (ix2 y j)
      = ∑ k : Fin K, a (ix2 y k) * w (ix2 k j) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 y j) ((contrEquiv1 d K hr hs).symm k) = ix2 y k := funext fun c => Fin.ext (by
    match c with
    | ⟨0, _⟩ => exact hl0 _ _
    | ⟨1, _⟩ => exact (hl1 _ _).trans hk)
  have er : d.rhsIdx (ix2 y j) ((contrEquiv1 d K hr hs).symm k) = ix2 k j := funext fun c => Fin.ext (by
    match c with
    | ⟨0, _⟩ => exact (hr0 _ _).trans hk
    | ⟨1, _⟩ => exact hr1 _ _)
  rw [el, er]

end Cert.EdgeScore.Lib

end
-- ==== Proof.LibUnitAxis.lean ====
/-
  A unit axis inserted in the middle by a shape cast.

  An `[a, b]` array re-read in row-major order as `[a, 1, b]` has, at `(e, 0, k)`, the entry `(e, k)`: both sit at
  row-major position `e · b + k`. (The library's layout lemmas cover a leading unit axis; this is the middle one, which
  is what `v[:, None, :]` and a reshape to `(a, 1, b)` produce.)
-/
import Idealize.ShloMosaic.Lib.ValueIdx
import Idealize.ShloMosaic.Lib.Pipeline.Value

namespace UnitAxis

open Idealize.ShloMosaic Idealize.ShloMosaic.ValueIdx

/-- An `[a, b]` array cast to `[a, 1, b]` reads, at `(e, u, k)`, the operand at `(e, k)`. -/
theorem shapeCast_ab_a1b_apply {α : Type} {a b : ℕ} (x : (⟨2, ![a, b]⟩ : Shape).Idx → α)
    (h : (⟨2, ![a, b]⟩ : Shape).ShapeCasts ⟨3, ![a, 1, b]⟩) (e : Fin a) (u : Fin 1) (k : Fin b) :
    shapeCast ⟨3, ![a, 1, b]⟩ x h (ix3 e u k) = x (ix2 e k) :=
  shapeCast_apply x h _ _ (by
    have hu : u.val = 0 := by omega
    rw [Shape.rowMajor_val_two, Shape.rowMajor_val_three]
    show e.val * b + k.val = (e.val * 1 + u.val) * b + k.val
    rw [hu, Nat.mul_one, Nat.add_zero])

end UnitAxis
-- ==== Proof.LibLayerStack.lean ====
/-
  Layers kept as a stack, read at an entry, for generic extents.

  A network's per-layer parameters are often passed as one array with the layer as leading axis: weight matrices
  [n, a, b], bias rows [n, b]. A program takes layer l by cutting the slab [l : l+1] out along the leading axis and
  dropping the unit axis by a reshape; a shape cast keeps the row-major position, so the result reads the stack
  at (l, ·). Stated with the cut's offset as a number `o` and the layer as `l` with `l = o`, so that the printed
  literal offsets `![0, 0, 0]`, `![1, 0, 0]` match as they are.
-/
import Idealize.ShloMosaic.Lib.ValueIdx
import Idealize.ShloMosaic.Lib.ValueLayout
import Idealize.ShloMosaic.Lib.Pipeline.Value

namespace LayerStack

open Idealize.ShloMosaic Idealize.ShloMosaic.ValueIdx

variable {α : Type}

/-- Layer `l` of a stack of matrices [n, a, b], cut out as [1, a, b] and cast to [a, b], reads at (i, j) the stack's
    entry (l, i, j). -/
theorem matrix_apply {n a b : ℕ} (x : (⟨3, ![n, a, b]⟩ : Shape).Idx → α) (o : ℕ)
    (h : (⟨3, ![n, a, b]⟩ : Shape).Slices ![o, 0, 0] ⟨3, ![1, a, b]⟩)
    (hc : (⟨3, ![1, a, b]⟩ : Shape).ShapeCasts ⟨2, ![a, b]⟩) (l : Fin n) (hl : l.val = o) (i : Fin a) (j : Fin b) :
    shapeCast ⟨2, ![a, b]⟩ (extractStridedSlice ⟨3, ![1, a, b]⟩ ![o, 0, 0] x h) hc (ix2 i j) = x (ix3 l i j) := by
  rw [shapeCast_1ab_ab_apply]
  exact extractStridedSlice_apply _ _ _ _ _ (fun ax => by
    match ax with
    | ⟨0, _⟩ => exact hl.trans (Nat.add_zero o).symm
    | ⟨1, _⟩ => exact (Nat.zero_add _).symm
    | ⟨2, _⟩ => exact (Nat.zero_add _).symm)

/-- Row `l` of a stack of rows [n, b], cut out as [1, b] and cast to the vector [b], reads at j the stack's entry
    (l, j). -/
theorem row_apply {n b : ℕ} (x : (⟨2, ![n, b]⟩ : Shape).Idx → α) (o : ℕ)
    (h : (⟨2, ![n, b]⟩ : Shape).Slices ![o, 0] ⟨2, ![1, b]⟩)
    (hc : (⟨2, ![1, b]⟩ : Shape).ShapeCasts ⟨1, ![b]⟩) (l : Fin n) (hl : l.val = o) (j : Fin b) :
    shapeCast ⟨1, ![b]⟩ (extractStridedSlice ⟨2, ![1, b]⟩ ![o, 0] x h) hc (ix1 j) = x (ix2 l j) := by
  rw [shapeCast_1a_a_apply]
  exact slice2_axis0_apply o x h (0 : Fin 1) j l (hl.trans (Nat.add_zero o).symm)

end LayerStack
-- ==== Proof.KernelShared.lean ====
/-
  The pieces of the kernel body's arithmetic that both branches share, read at an entry of a block of 512 rows:
  the numeric field's embedding, a matrix product of a 512 × 64 block with a 64 × 64 matrix, a layer's weight
  matrix (layer l of a stack of two, transposed) and bias row.
-/
import proofs.«147127_j74165495267876_1_alg».proof.Proof.Gen.KernelIdeal.Skeleton
import proofs.«147127_j74165495267876_1_alg».proof.Proof.Spec
import proofs.«147127_j74165495267876_1_alg».proof.Proof.LibBlockLayout
import proofs.«147127_j74165495267876_1_alg».proof.Proof.LibPlainMatmul
import proofs.«147127_j74165495267876_1_alg».proof.Proof.LibUnitAxis
import proofs.«147127_j74165495267876_1_alg».proof.Proof.LibLayerStack
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowValue

open Cert.KernelIdeal Cert.KernelIdeal.Gen Idealize.ShloMosaic Idealize.ShloMosaic.ValueIdx FieldMix

/-- Entry (y, j) of a 512 × 64 block times a 64 × 64 matrix, accumulated into zero: `Σ_k a (y, k) · w (k, j)`. -/
theorem blockDot_apply (a : FVec Ideal S512x64 .bf16) (w : FVec Ideal S64x64 .bf16) (y : Fin 512) (j : Fin 64) :
    matmul dot_S512x64_S64x64_S512x64_1_0_0_1_n_n none a w (constant S512x64 .f32 0x00000000#32) (ix2 y j)
      = ∑ k : Fin 64, a (ix2 y k) * w (ix2 k j) :=
  Cert.EdgeScore.Lib.matmul_zero_ix2_apply dot_S512x64_S64x64_S512x64_1_0_0_1_n_n rfl rfl
    (fun i q => by
      unfold DotDims.lhsIdx
      rw [dif_neg (show ¬(0 : Fin S512x64.rank) ∈ dot_S512x64_S64x64_S512x64_1_0_0_1_n_n.lhsBatch by decide), dif_pos (show (0 : Fin S512x64.rank) ∈ dot_S512x64_S64x64_S512x64_1_0_0_1_n_n.lhsNonContracting by decide)]
      rfl)
    (fun i q => dot_S512x64_S64x64_S512x64_1_0_0_1_n_n.lhsIdx_val_of_single rfl i q)
    (fun i q => dot_S512x64_S64x64_S512x64_1_0_0_1_n_n.rhsIdx_val_of_single rfl i q)
    (fun i q => by
      unfold DotDims.rhsIdx
      rw [dif_neg (show ¬(1 : Fin S64x64.rank) ∈ dot_S512x64_S64x64_S512x64_1_0_0_1_n_n.rhsBatch by decide), dif_pos (show (1 : Fin S64x64.rank) ∈ dot_S512x64_S64x64_S512x64_1_0_0_1_n_n.rhsNonContracting by decide)]
      rfl)
    none a w y j

/-- Entry (r, j) of the flat 25600 × 64 matrix of all the block's fields times a 64 × 64 matrix, accumulated into zero. -/
theorem flatDot_apply (a : FVec Ideal S25600x64 .bf16) (w : FVec Ideal S64x64 .bf16) (r : Fin 25600) (j : Fin 64) :
    matmul dot_S25600x64_S64x64_S25600x64_1_0_0_1_n_n none a w (constant S25600x64 .f32 0x00000000#32) (ix2 r j)
      = ∑ k : Fin 64, a (ix2 r k) * w (ix2 k j) :=
  Cert.EdgeScore.Lib.matmul_zero_ix2_apply dot_S25600x64_S64x64_S25600x64_1_0_0_1_n_n rfl rfl
    (fun i q => by
      unfold DotDims.lhsIdx
      rw [dif_neg (show ¬(0 : Fin S25600x64.rank) ∈ dot_S25600x64_S64x64_S25600x64_1_0_0_1_n_n.lhsBatch by decide), dif_pos (show (0 : Fin S25600x64.rank) ∈ dot_S25600x64_S64x64_S25600x64_1_0_0_1_n_n.lhsNonContracting by decide)]
      rfl)
    (fun i q => dot_S25600x64_S64x64_S25600x64_1_0_0_1_n_n.lhsIdx_val_of_single rfl i q)
    (fun i q => dot_S25600x64_S64x64_S25600x64_1_0_0_1_n_n.rhsIdx_val_of_single rfl i q)
    (fun i q => by
      unfold DotDims.rhsIdx
      rw [dif_neg (show ¬(1 : Fin S64x64.rank) ∈ dot_S25600x64_S64x64_S25600x64_1_0_0_1_n_n.rhsBatch by decide), dif_pos (show (1 : Fin S64x64.rank) ∈ dot_S25600x64_S64x64_S25600x64_1_0_0_1_n_n.rhsNonContracting by decide)]
      rfl)
    none a w r j

/-- The numeric field's embedding at row p, feature d: the row's number times the weight column's entry d plus the
    bias row's entry d. -/
theorem numEmb_apply (x1 : Vec Ideal S512x1 .f32) (x2 : Vec Ideal S64x1 .f32) (x3 : Vec Ideal S1x64 .f32) (p : Fin 512) (d : Fin 64) :
    k0_pay3 x1 x2 x3 (ix2 p d)
      = numEmb (x1 (ix2 p (0 : Fin 1))) (fun d => x2 (ix2 d (0 : Fin 1))) (fun d => x3 (ix2 (0 : Fin 1) d)) d := by
  unfold k0_pay3 numEmb
  dsimp only
  rw [shapeCast_self, shapeCast_self, addf_apply, mulf_apply, BlockLayout.broadcastTo_a1_ab_apply,
    broadcastTo_1b_ab_apply, broadcastTo_1b_ab_apply, shapeCast_a_1a_apply, BlockLayout.shapeCast_c1_c_apply]

/-- Layer l's weight matrix as the product takes it (cut out of the stack of two, transposed) at (k, j): the stack's
    entry (l, j, k). -/
theorem layerW_apply (x : FVec Ideal S2x64x64 .f32) (o : ℕ) (h : S2x64x64.Slices ![o, 0, 0] S1x64x64) (l : Fin 2) (hl : l.val = o)
    (k j : Fin 64) :
    transpose S64x64 [1, 0] (truncf (F := Ideal) .bf16 (shapeCast S64x64 (extractStridedSlice S1x64x64 ![o, 0, 0] x h) shapeCasts_S1x64x64_S64x64) bitsLt_bf16_f32) transposes_S64x64_p1_0_S64x64 (ix2 k j)
      = x (ix3 l j k) := by
  rw [transpose_ix2_apply, truncf_apply]
  exact LayerStack.matrix_apply x o h shapeCasts_S1x64x64_S64x64 l hl j k

/-- Layer l's bias, cut out of the two bias rows and broadcast over the block's rows, at (p, j): entry (l, j). -/
theorem layerB_apply (x : FVec Ideal S2x64 .f32) (o : ℕ) (h : S2x64.Slices ![o, 0] S1x64) (l : Fin 2) (hl : l.val = o) (p : Fin 512) (j : Fin 64) :
    broadcastTo S512x64 (shapeCast S1x64 (shapeCast S64 (extractStridedSlice S1x64 ![o, 0] x h) shapeCasts_S1x64_S64) shapeCasts_S64_S1x64) broadcasts_S1x64_S512x64 (ix2 p j)
      = x (ix2 l j) := by
  rw [broadcastTo_1b_ab_apply, shapeCast_a_1a_apply]
  exact LayerStack.row_apply x o h shapeCasts_S1x64_S64 l hl j

/-- One dense layer as the kernel spells it — the rows times the layer's transposed weight matrix, accumulated into
    zero, plus the layer's bias row — at (p, j). -/
theorem dense_apply (y : FVec Ideal S512x64 .f32) (W : FVec Ideal S2x64x64 .f32) (B : FVec Ideal S2x64 .f32) (o : ℕ)
    (hW : S2x64x64.Slices ![o, 0, 0] S1x64x64) (hB : S2x64.Slices ![o, 0] S1x64) (l : Fin 2) (hl : l.val = o) (p : Fin 512) (j : Fin 64) :
    addf (matmul dot_S512x64_S64x64_S512x64_1_0_0_1_n_n none (truncf (F := Ideal) .bf16 y bitsLt_bf16_f32)
        (transpose S64x64 [1, 0] (truncf (F := Ideal) .bf16 (shapeCast S64x64 (extractStridedSlice S1x64x64 ![o, 0, 0] W hW) shapeCasts_S1x64x64_S64x64) bitsLt_bf16_f32) transposes_S64x64_p1_0_S64x64)
        (constant S512x64 .f32 0x00000000#32))
      (broadcastTo S512x64 (shapeCast S1x64 (shapeCast S64 (extractStridedSlice S1x64 ![o, 0] B hB) shapeCasts_S1x64_S64) shapeCasts_S64_S1x64) broadcasts_S1x64_S512x64)
      (ix2 p j)
      = dense (fun j k => W (ix3 l j k)) (fun j => B (ix2 l j)) (fun k => y (ix2 p k)) j := by
  unfold dense
  rw [addf_apply, blockDot_apply, layerB_apply B o hB l hl]
  refine congrArg (· + _) (Finset.sum_congr rfl fun k _ => ?_)
  rw [truncf_apply, layerW_apply W o hW l hl]

end Cert.KernelIdeal.RowValue

end
-- ==== Proof.KernelGlobal.lean ====
/-
  The kernel body's global branch read at an entry of a block of 512 rows: every looked-up field and the numeric
  field through the accumulation matrix (one flat 25600 × 64 product re-read as 512 × 50 × 64, and one 512 × 64
  product), their total over the 51 fields, each field's accumulated value, and the mean of the rectified values
  sent through the two dense layers.
-/
import proofs.«147127_j74165495267876_1_alg».proof.Proof.Gen.KernelIdeal.Skeleton
import proofs.«147127_j74165495267876_1_alg».proof.Proof.Spec
import proofs.«147127_j74165495267876_1_alg».proof.Proof.LibBlockLayout
import proofs.«147127_j74165495267876_1_alg».proof.Proof.LibPlainMatmul
import proofs.«147127_j74165495267876_1_alg».proof.Proof.LibUnitAxis
import proofs.«147127_j74165495267876_1_alg».proof.Proof.KernelShared
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowValue

open Cert.KernelIdeal Cert.KernelIdeal.Gen Idealize.ShloMosaic Idealize.ShloMosaic.ValueIdx FieldMix

theorem pay2_eq (x0 : Vec Ideal S512x50x64 .bf16) : k0_pay2 x0 = x0 := by
  unfold k0_pay2; exact shapeCast_self _ _

theorem pay4_apply (x4 : Vec Ideal S64x64 .f32) (i : S64x64.Idx) : k0_pay4 x4 i = x4 i := rfl

theorem pay5_eq (x5 : Vec Ideal S1x64 .f32) : k0_pay5 x5 = x5 := by
  unfold k0_pay5; exact shapeCast_self _ _

/-- A looked-up field through the accumulation matrix: row p·50 + f of the flat product is field f of row p. -/
theorem supField_apply (x0 : Vec Ideal S512x50x64 .bf16) (x4 : Vec Ideal S64x64 .f32) (p : Fin 512) (f : Fin 50) (e : Fin 64) :
    k0_pay6 x0 x4 (ix3 p f e) = supField (fun f d => x0 (ix3 p f d)) (fun d e => x4 (ix2 d e)) f e := by
  unfold k0_pay6 supField
  dsimp only
  rw [BlockLayout.shapeCast_nc_abc_apply (by norm_num : 512 * 50 = 25600), flatDot_apply]
  refine Finset.sum_congr rfl fun k _ => ?_
  rw [BlockLayout.shapeCast_abc_nc_apply, pay2_eq, pay4_apply]

/-- The numeric field through the accumulation matrix. -/
theorem supNum_apply (x1 : Vec Ideal S512x1 .f32) (x2 : Vec Ideal S64x1 .f32) (x3 : Vec Ideal S1x64 .f32) (x4 : Vec Ideal S64x64 .f32)
    (p : Fin 512) (e : Fin 64) :
    k0_pay7 x1 x2 x3 x4 (ix2 p e)
      = supNum (x1 (ix2 p (0 : Fin 1))) (fun d => x2 (ix2 d (0 : Fin 1))) (fun d => x3 (ix2 (0 : Fin 1) d)) (fun d e => x4 (ix2 d e)) e := by
  unfold k0_pay7 supNum
  dsimp only
  rw [blockDot_apply]
  refine Finset.sum_congr rfl fun k _ => ?_
  rw [truncf_apply, numEmb_apply, pay4_apply]

/-- The total over the 51 fields: the sum over the block's middle axis plus the numeric field's image. -/
theorem supTotal_apply (x0 : Vec Ideal S512x50x64 .bf16) (x1 : Vec Ideal S512x1 .f32) (x2 : Vec Ideal S64x1 .f32) (x3 : Vec Ideal S1x64 .f32)
    (x4 : Vec Ideal S64x64 .f32) (p : Fin 512) (e : Fin 64) :
    k0_pay8 x0 x1 x2 x3 x4 (ix2 p e)
      = supTotal (fun f d => x0 (ix3 p f d)) (x1 (ix2 p (0 : Fin 1))) (fun d => x2 (ix2 d (0 : Fin 1))) (fun d => x3 (ix2 (0 : Fin 1) d))
          (fun d e => x4 (ix2 d e)) e := by
  unfold k0_pay8 supTotal
  dsimp only
  rw [addf_apply, supNum_apply]
  refine congrArg (· + _) ?_
  refine (BlockLayout.nodeSum_apply (k0_pay6 x0 x4) reduces_S512x50x64_S512x64 (.inl rfl) rfl p e).trans ?_
  exact Finset.sum_congr rfl fun f _ => supField_apply x0 x4 p f e

/-- A looked-up field's accumulated value: the total broadcast along the field axis, the bias along rows and fields. -/
theorem accField_apply (x0 : Vec Ideal S512x50x64 .bf16) (x1 : Vec Ideal S512x1 .f32) (x2 : Vec Ideal S64x1 .f32) (x3 : Vec Ideal S1x64 .f32)
    (x4 : Vec Ideal S64x64 .f32) (x5 : Vec Ideal S1x64 .f32) (p : Fin 512) (f : Fin 50) (e : Fin 64) :
    k0_pay9 x0 x1 x2 x3 x4 x5 (ix3 p f e)
      = accField (fun f d => x0 (ix3 p f d)) (x1 (ix2 p (0 : Fin 1))) (fun d => x2 (ix2 d (0 : Fin 1))) (fun d => x3 (ix2 (0 : Fin 1) d))
          (fun d e => x4 (ix2 d e)) (fun e => x5 (ix2 (0 : Fin 1) e)) f e := by
  unfold k0_pay9 accField
  dsimp only
  rw [addf_apply, divf_apply, addf_apply, mulf_apply, broadcast_apply, broadcast_apply,
    BlockLayout.broadcastTo_a1c_abc_apply, UnitAxis.shapeCast_ab_a1b_apply, BlockLayout.broadcastTo_11c_abc_apply,
    shapeCast_ab_1ab_apply, pay5_eq, supTotal_apply, supField_apply]
  rfl

/-- The numeric field's accumulated value, before the division by 90 and the bias. -/
theorem accNumPre_apply (x0 : Vec Ideal S512x50x64 .bf16) (x1 : Vec Ideal S512x1 .f32) (x2 : Vec Ideal S64x1 .f32) (x3 : Vec Ideal S1x64 .f32)
    (x4 : Vec Ideal S64x64 .f32) (p : Fin 512) (e : Fin 64) :
    k0_pay10 x0 x1 x2 x3 x4 (ix2 p e)
      = supTotal (fun f d => x0 (ix3 p f d)) (x1 (ix2 p (0 : Fin 1))) (fun d => x2 (ix2 d (0 : Fin 1))) (fun d => x3 (ix2 (0 : Fin 1) d))
          (fun d e => x4 (ix2 d e)) e
        + w39 * supNum (x1 (ix2 p (0 : Fin 1))) (fun d => x2 (ix2 d (0 : Fin 1))) (fun d => x3 (ix2 (0 : Fin 1) d)) (fun d e => x4 (ix2 d e)) e := by
  unfold k0_pay10
  rw [addf_apply, mulf_apply, broadcast_apply, supTotal_apply, supNum_apply]
  rfl

theorem pay11_apply (i : S512x64.Idx) : k0_pay11 (F := Ideal) i = w90 := rfl

end Cert.KernelIdeal.RowValue

end
-- ==== Proof.KernelOut.lean ====
/-
  The kernel body's stored value at an entry (p, q) of a block of 512 rows is the row function of row p of the
  input blocks: the two dense layers with the rectifier between them, the mean of the rectified accumulated values
  that enters them in the global branch, the pairwise-interaction term that enters them in the local branch, and the
  half-and-half mix of the two.
-/
import proofs.«147127_j74165495267876_1_alg».proof.Proof.Gen.KernelIdeal.Skeleton
import proofs.«147127_j74165495267876_1_alg».proof.Proof.Spec
import proofs.«147127_j74165495267876_1_alg».proof.Proof.LibBlockLayout
import proofs.«147127_j74165495267876_1_alg».proof.Proof.LibPlainMatmul
import proofs.«147127_j74165495267876_1_alg».proof.Proof.LibUnitAxis
import proofs.«147127_j74165495267876_1_alg».proof.Proof.KernelShared
import proofs.«147127_j74165495267876_1_alg».proof.Proof.KernelGlobal
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowValue

open Cert.KernelIdeal Cert.KernelIdeal.Gen Idealize.ShloMosaic Idealize.ShloMosaic.ValueIdx FieldMix

/-- Two dense layers with a rectifier between them, as the kernel spells them, at (p, j). -/
theorem twoLayer_apply (y : FVec Ideal S512x64 .f32) (W : FVec Ideal S2x64x64 .f32) (B : FVec Ideal S2x64 .f32) (p : Fin 512) (j : Fin 64) :
    (addf (matmul dot_S512x64_S64x64_S512x64_1_0_0_1_n_n none (truncf (F := Ideal) .bf16 (maximumf (addf (matmul dot_S512x64_S64x64_S512x64_1_0_0_1_n_n none (truncf (F := Ideal) .bf16 y bitsLt_bf16_f32)
        (transpose S64x64 [1, 0] (truncf (F := Ideal) .bf16 (shapeCast S64x64 (extractStridedSlice S1x64x64 ![0, 0, 0] W slices_S2x64x64_o0_0_0_S1x64x64) shapeCasts_S1x64x64_S64x64) bitsLt_bf16_f32) transposes_S64x64_p1_0_S64x64)
        (constant S512x64 .f32 0x00000000#32))
      (broadcastTo S512x64 (shapeCast S1x64 (shapeCast S64 (extractStridedSlice S1x64 ![0, 0] B slices_S2x64_o0_0_S1x64) shapeCasts_S1x64_S64) shapeCasts_S64_S1x64) broadcasts_S1x64_S512x64)) (broadcast S512x64 (Scalar.ofBits (F := Ideal) .f32 0x00000000#32))) bitsLt_bf16_f32)
        (transpose S64x64 [1, 0] (truncf (F := Ideal) .bf16 (shapeCast S64x64 (extractStridedSlice S1x64x64 ![1, 0, 0] W slices_S2x64x64_o1_0_0_S1x64x64) shapeCasts_S1x64x64_S64x64) bitsLt_bf16_f32) transposes_S64x64_p1_0_S64x64)
        (constant S512x64 .f32 0x00000000#32))
      (broadcastTo S512x64 (shapeCast S1x64 (shapeCast S64 (extractStridedSlice S1x64 ![1, 0] B slices_S2x64_o1_0_S1x64) shapeCasts_S1x64_S64) shapeCasts_S64_S1x64) broadcasts_S1x64_S512x64)) (ix2 p j)
      = mlp (fun j k => W (ix3 (0 : Fin 2) j k)) (fun j k => W (ix3 (1 : Fin 2) j k)) (fun j => B (ix2 (0 : Fin 2) j))
          (fun j => B (ix2 (1 : Fin 2) j)) (fun k => y (ix2 p k)) j := by
  rw [dense_apply _ W B 1 slices_S2x64x64_o1_0_0_S1x64x64 slices_S2x64_o1_0_S1x64 1 rfl p j]
  unfold mlp
  refine congrArg (fun z => dense _ _ z j) (funext fun k => ?_)
  rw [maximumf_apply, broadcast_apply, dense_apply y W B 0 slices_S2x64x64_o0_0_0_S1x64x64 slices_S2x64_o0_0_S1x64 0 rfl p k]
  rfl

/-- The global branch's result at (p, j): the two layers over the mean of the rectified accumulated values. -/
theorem globalOut_apply (x0 : Vec Ideal S512x50x64 .bf16) (x1 : Vec Ideal S512x1 .f32) (x2 : Vec Ideal S64x1 .f32) (x3 : Vec Ideal S1x64 .f32)
    (x4 : Vec Ideal S64x64 .f32) (x5 : Vec Ideal S1x64 .f32) (x6 : Vec Ideal S2x64x64 .f32) (x7 : Vec Ideal S2x64 .f32) (p : Fin 512) (j : Fin 64) :
    k0_pay12 (k0_pay5 x5) (k0_pay9 x0 x1 x2 x3 x4 x5) (k0_pay10 x0 x1 x2 x3 x4) (k0_pay11 (F := Ideal)) x6 x7 (ix2 p j)
      = mlp (fun j k => x6 (ix3 (0 : Fin 2) j k)) (fun j k => x6 (ix3 (1 : Fin 2) j k)) (fun j => x7 (ix2 (0 : Fin 2) j))
          (fun j => x7 (ix2 (1 : Fin 2) j))
          (globalIn (fun f d => x0 (ix3 p f d)) (x1 (ix2 p (0 : Fin 1))) (fun d => x2 (ix2 d (0 : Fin 1))) (fun d => x3 (ix2 (0 : Fin 1) d))
            (fun d e => x4 (ix2 d e)) (fun e => x5 (ix2 (0 : Fin 1) e))) j := by
  unfold k0_pay12
  dsimp only
  rw [twoLayer_apply _ x6 x7 p j]
  refine congrArg (fun z => mlp _ _ _ _ z j) (funext fun k => ?_)
  unfold globalIn
  rw [divf_apply, broadcast_apply, addf_apply, maximumf_apply, broadcast_apply, addf_apply, divf_apply, pay11_apply,
    broadcastTo_1b_ab_apply, pay5_eq, accNumPre_apply]
  refine congrArg (fun s => Ideal.div (s + _) _) ?_
  refine (BlockLayout.nodeSum_apply _ reduces_S512x50x64_S512x64 (.inl rfl) rfl p k).trans ?_
  refine Finset.sum_congr rfl fun f _ => ?_
  rw [maximumf_apply, broadcast_apply, accField_apply]
  rfl

/-- The pairwise-interaction term before the factor one half, at (p, d). -/
theorem localPre_apply (x0 : Vec Ideal S512x50x64 .bf16) (x1 : Vec Ideal S512x1 .f32) (x2 : Vec Ideal S64x1 .f32) (x3 : Vec Ideal S1x64 .f32)
    (p : Fin 512) (d : Fin 64) :
    k0_pay13 (k0_pay2 x0) (k0_pay3 x1 x2 x3) (ix2 p d)
      = ((∑ f : Fin 50, x0 (ix3 p f d)) + numEmb (x1 (ix2 p (0 : Fin 1))) (fun d => x2 (ix2 d (0 : Fin 1))) (fun d => x3 (ix2 (0 : Fin 1) d)) d)
          * ((∑ f : Fin 50, x0 (ix3 p f d)) + numEmb (x1 (ix2 p (0 : Fin 1))) (fun d => x2 (ix2 d (0 : Fin 1))) (fun d => x3 (ix2 (0 : Fin 1) d)) d)
        - ∑ f : Fin 50, x0 (ix3 p f d) * x0 (ix3 p f d) := by
  unfold k0_pay13
  dsimp only
  rw [subf_apply, mulf_apply, addf_apply, numEmb_apply, pay2_eq]
  have h1 := BlockLayout.nodeSum_apply (extf (F := Ideal) .f32 x0 bitsLt_bf16_f32) reduces_S512x50x64_S512x64 (.inl rfl) rfl p d
  have h2 := BlockLayout.nodeSum_apply (mulf (extf (F := Ideal) .f32 x0 bitsLt_bf16_f32) (extf (F := Ideal) .f32 x0 bitsLt_bf16_f32))
    reduces_S512x50x64_S512x64 (.inl rfl) rfl p d
  rw [h1, h2]
  rfl

theorem pay14_apply (i : S512x64.Idx) : k0_pay14 (F := Ideal) i = whalf := rfl

/-- THE STORED VALUE at (p, q): the row function of row p of the input blocks, at feature q. -/
theorem out_row (x0 : Vec Ideal S512x50x64 .bf16) (x1 : Vec Ideal S512x1 .f32) (x2 : Vec Ideal S64x1 .f32) (x3 : Vec Ideal S1x64 .f32)
    (x4 : Vec Ideal S64x64 .f32) (x5 : Vec Ideal S1x64 .f32) (x6 : Vec Ideal S2x64x64 .f32) (x7 : Vec Ideal S2x64 .f32)
    (x8 : Vec Ideal S2x64x64 .f32) (x9 : Vec Ideal S2x64 .f32) (p : Fin 512) (q : Fin 64) :
    k0_pay1 (k0_pay12 (k0_pay5 x5) (k0_pay9 x0 x1 x2 x3 x4 x5) (k0_pay10 x0 x1 x2 x3 x4) (k0_pay11 (F := Ideal)) x6 x7)
        (k0_pay13 (k0_pay2 x0) (k0_pay3 x1 x2 x3)) (k0_pay14 (F := Ideal)) x8 x9 (ix2 p q)
      = rowOut (fun f d => x0 (ix3 p f d)) (x1 (ix2 p (0 : Fin 1))) (fun d => x2 (ix2 d (0 : Fin 1))) (fun d => x3 (ix2 (0 : Fin 1) d))
          (fun d e => x4 (ix2 d e)) (fun e => x5 (ix2 (0 : Fin 1) e))
          (fun j k => x6 (ix3 (0 : Fin 2) j k)) (fun j k => x6 (ix3 (1 : Fin 2) j k)) (fun j => x7 (ix2 (0 : Fin 2) j)) (fun j => x7 (ix2 (1 : Fin 2) j))
          (fun j k => x8 (ix3 (0 : Fin 2) j k)) (fun j k => x8 (ix3 (1 : Fin 2) j k)) (fun j => x9 (ix2 (0 : Fin 2) j)) (fun j => x9 (ix2 (1 : Fin 2) j)) q := by
  unfold k0_pay1 rowOut
  dsimp only
  rw [addf_apply, mulf_apply, mulf_apply, broadcast_apply, globalOut_apply, twoLayer_apply _ x8 x9 p q]
  refine congrArg (fun z => _ + _ * mlp _ _ _ _ z q) (funext fun k => ?_)
  unfold localIn
  rw [mulf_apply, pay14_apply, localPre_apply]

end Cert.KernelIdeal.RowValue

end
-- ==== Proof.LibColumn.lean ====
/-
  A column vector's layout operations read at an index: the two forms a reduction that keeps its axis
  (a row sum, a row maximum kept as an `[a, 1]` column) needs and Lib/ValueLayout.lean does not have.
  A one-axis array cast to a column reads the operand at the row; a column broadcast along the lanes reads
  the column at the row, whatever the lane.
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to `[a, 1]` reads, at `(i, u)`, the operand at `i`, whatever the unit coordinate `u`:
    row-major, `(i, u)` is element `i * 1 + u = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Sums over the indices of a one-axis array and of a column -/

/-- The indices of a one-axis shape are its coordinates. -/
def idxEquiv1 {n : ℕ} : (⟨1, ![n]⟩ : Shape).Idx ≃ Fin n where
  toFun i := i 0
  invFun r := ix1 r
  left_inv i := (eq_ix1 i).symm
  right_inv _ := rfl

/-- A sum over the indices of an `[n]` array is the sum over its `n` coordinates. -/
theorem sum_idx1 {M : Type*} [AddCommMonoid M] {n : ℕ} (f : (⟨1, ![n]⟩ : Shape).Idx → M) :
    ∑ i, f i = ∑ r : Fin n, f (ix1 r) :=
  (Equiv.sum_comp idxEquiv1.symm f).symm

/-- A sum over the indices of an `[n, 1]` column is the sum over its `n` rows. -/
theorem sum_idx_col {M : Type*} [AddCommMonoid M] {n : ℕ} (f : (⟨2, ![n, 1]⟩ : Shape).Idx → M) :
    ∑ i, f i = ∑ r : Fin n, f (ix2 r (0 : Fin 1)) := by
  rw [sum_idx2]
  exact Finset.sum_congr rfl fun r _ => Fin.sum_univ_one _

end Cert.LibColumn
-- ==== Proof.KernelArray.lean ====
/-
  From the kernel's blocks to its whole result array.

  The call runs over 64 grid points; point t works on rows 512·t … 512·t + 511: its blocks of the looked-up embeddings
  (which @main computes before the call: the indices made non-negative by adding the table's height to the negative
  ones, then the table's rows gathered) and of the numbers are those rows, every parameter's block is the whole
  parameter, and it writes back rows 512·t … 512·t + 511 of the result. The stored value at (p, q) is the row function
  of row p of the blocks, that is of row 512·t + p of the arrays; the 64 blocks cover the result, so the array after
  the run is the row function row by row.
-/
import proofs.«147127_j74165495267876_1_alg».proof.Proof.Gen.KernelIdeal.Value
import proofs.«147127_j74165495267876_1_alg».proof.Proof.KernelOut
import proofs.«147127_j74165495267876_1_alg».proof.Proof.LibColumn
import Idealize.ShloMosaic.Lib.ValueLayout
import Idealize.ShloMosaic.Lib.StableHlo.Run
import Idealize.ShloMosaic.Lib.ValueIdx
import Idealize.ShloMosaic.Lib.Pipeline.Value

set_option maxRecDepth 16384

noncomputable section

namespace Cert.KernelIdeal.ArrayValue

open Cert.KernelIdeal Cert.KernelIdeal.Gen Cert.KernelIdeal.Value Idealize.ShloMosaic Idealize.ShloMosaic.TcCoe Idealize.SL.Sem
open Idealize.ShloMosaic.ValueIdx FieldMix
open Idealize.ShloMosaic.Pipeline (Dat)

variable (m : (ℓ : Loc nD τ sig) → Buf (Elt Ideal) ℓ) (ρ : Dev nD → PrngReg)

/-- The looked-up embeddings as @main computes them before the call, from the index array and the table. -/
def lookedUp (a0 : IVec S32768x50 32) (a2 : FVec Ideal S100000x64 .f32) : FVec Ideal S32768x50x64 .f32 :=
  Host.gather gather_S100000x64_S32768x50x1_S32768x50x64_2_0_n_n_0_2_164 a2
    (broadcastInDim S32768x50x1 ![0, 1] bcast_S32768x50_S32768x50x1_0_1
      (select (cmpi CmpIPredicate.slt a0 (broadcastInDim S32768x50 ![] bcast_S_S32768x50 (constantI S_ 32 0#32)))
        (addi a0 (broadcastInDim S32768x50 ![] bcast_S_S32768x50 (constantI S_ 32 100000#32))) a0))

/-! ## The arrays the call finds -/

theorem V_v7 (c : Dev nD) :
    (V m c main_v7 : S32768x50x64.Idx → EReal) = lookedUp (m ((c : Thread nD τ).loc main_arg0)) (m ((c : Thread nD τ).loc main_arg2)) := by
  dsimp only [Gen.V, Gen.hostOps0]
  after_results
  rfl

theorem V_v8 (c : Dev nD) :
    (V m c main_v8 : S32768x1.Idx → EReal) = shapeCast S32768x1 (m ((c : Thread nD τ).loc main_arg1)) shapeCasts_S32768_S32768x1 := by
  dsimp only [Gen.V, Gen.hostOps0]
  after_results
  rfl

theorem V_v9 (c : Dev nD) :
    (V m c main_v9 : S1x64.Idx → EReal) = shapeCast S1x64 (m ((c : Thread nD τ).loc main_arg4)) shapeCasts_S64_S1x64 := by
  dsimp only [Gen.V, Gen.hostOps0]
  after_results
  rfl

theorem V_v10 (c : Dev nD) :
    (V m c main_v10 : S1x64.Idx → EReal) = shapeCast S1x64 (m ((c : Thread nD τ).loc main_arg6)) shapeCasts_S64_S1x64 := by
  dsimp only [Gen.V, Gen.hostOps0]
  after_results
  rfl

/-! ## The windows' block indices, decided over the 64 grid points -/

theorem idx_facts : ∀ t : Fin cfg0.N,
    win0_10.index t (0 : Fin 2) = t.val ∧ win0_10.index t (1 : Fin 2) = 0
    ∧ win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem idx_facts' : ∀ t : Fin cfg0.N,
    win0_6.index t (0 : Fin 3) = 0 ∧ win0_6.index t (1 : Fin 3) = 0 ∧ win0_6.index t (2 : Fin 3) = 0
    ∧ win0_7.index t (0 : Fin 2) = 0 ∧ win0_7.index t (1 : Fin 2) = 0
    ∧ win0_8.index t (0 : Fin 3) = 0 ∧ win0_8.index t (1 : Fin 3) = 0 ∧ win0_8.index t (2 : Fin 3) = 0
    ∧ win0_9.index t (0 : Fin 2) = 0 ∧ win0_9.index t (1 : Fin 2) = 0 :=
  (by decide +kernel : ∀ t : Fin grid0.N, _)

/-! ## Each input block read where the arrays hold it -/

/-- Row p of point t's block of looked-up embeddings is row 512·t + p of the array. -/
theorem blk_lookedUp (c : Dev nD) (t : Fin cfg0.N) (p : Fin 512) (f : Fin 50) (d : Fin 64) (P : Fin 32768) (hP : P.val = t.val * 512 + p.val) :
    iblk m c 0 t (ix3 p f d : S512x50x64.Idx) = lookedUp (m ((c : Thread nD τ).loc main_arg0)) (m ((c : Thread nD τ).loc main_arg2)) (ix3 P f d) := by
  obtain ⟨-, -, e0, e1, e2, -⟩ := idx_facts t
  show (V m c main_v7 : S32768x50x64.Idx → EReal) (((cfg0.win 0).blk t).view.emb (ix3 p f d : S512x50x64.Idx)) = _
  rw [V_v7]
  refine congrArg _ (funext fun a => Fin.ext ?_)
  match a with
  | ⟨0, _⟩ => show win0_0.index t (0 : Fin 3) * 512 + 1 * p.val = P.val; omega
  | ⟨1, _⟩ => show win0_0.index t (1 : Fin 3) * 50 + 1 * f.val = f.val; omega
  | ⟨2, _⟩ => show win0_0.index t (2 : Fin 3) * 64 + 1 * d.val = d.val; omega

/-- Row p of point t's block of numbers is entry 512·t + p of the numbers. -/
theorem blk_number (c : Dev nD) (t : Fin cfg0.N) (p : Fin 512) (P : Fin 32768) (hP : P.val = t.val * 512 + p.val) :
    iblk m c 1 t (ix2 p (0 : Fin 1) : S512x1.Idx) = (m ((c : Thread nD τ).loc main_arg1)) (ix1 P) := by
  obtain ⟨-, -, -, -, -, e0, e1, -⟩ := idx_facts t
  show (V m c main_v8 : S32768x1.Idx → EReal) (((cfg0.win 1).blk t).view.emb (ix2 p (0 : Fin 1) : S512x1.Idx)) = _
  rw [V_v8]
  refine (congrArg _ (funext fun a => Fin.ext ?_)).trans
    (Cert.LibColumn.shapeCast_a_a1_apply (m ((c : Thread nD τ).loc main_arg1)) shapeCasts_S32768_S32768x1 P (0 : Fin 1))
  match a with
  | ⟨0, _⟩ => show win0_1.index t (0 : Fin 2) * 512 + 1 * p.val = P.val; omega
  | ⟨1, _⟩ => show win0_1.index t (1 : Fin 2) * 1 + 1 * 0 = 0; omega

/-- The numeric weight column's block is the whole column. -/
theorem blk_numW (c : Dev nD) (t : Fin cfg0.N) (d : Fin 64) :
    iblk m c 2 t (ix2 d (0 : Fin 1) : S64x1.Idx) = (m ((c : Thread nD τ).loc main_arg3)) (ix2 d (0 : Fin 1)) := by
  obtain ⟨-, -, -, -, -, -, -, e0, e1, -⟩ := idx_facts t
  show (V m c main_arg3 : S64x1.Idx → EReal) (((cfg0.win 2).blk t).view.emb (ix2 d (0 : Fin 1) : S64x1.Idx)) = _
  rw [V_main_arg3]
  refine congrArg _ (funext fun a => Fin.ext ?_)
  match a with
  | ⟨0, _⟩ => show win0_2.index t (0 : Fin 2) * 64 + 1 * d.val = d.val; omega
  | ⟨1, _⟩ => show win0_2.index t (1 : Fin 2) * 1 + 1 * 0 = 0; omega

/-- The numeric bias row's block is the whole bias, as a row. -/
theorem blk_numB (c : Dev nD) (t : Fin cfg0.N) (d : Fin 64) :
    iblk m c 3 t (ix2 (0 : Fin 1) d : S1x64.Idx) = (m ((c : Thread nD τ).loc main_arg4)) (ix1 d) := by
  obtain ⟨-, -, -, -, -, -, -, -, -, e0, e1, -⟩ := idx_facts t
  show (V m c main_v9 : S1x64.Idx → EReal) (((cfg0.win 3).blk t).view.emb (ix2 (0 : Fin 1) d : S1x64.Idx)) = _
  rw [V_v9]
  refine (congrArg _ (funext fun a => Fin.ext ?_)).trans (shapeCast_a_1a_apply (m ((c : Thread nD τ).loc main_arg4)) shapeCasts_S64_S1x64 (0 : Fin 1) d)
  match a with
  | ⟨0, _⟩ => show win0_3.index t (0 : Fin 2) * 1 + 1 * 0 = 0; omega
  | ⟨1, _⟩ => show win0_3.index t (1 : Fin 2) * 64 + 1 * d.val = d.val; omega

/-- The accumulation matrix's block is the whole matrix. -/
theorem blk_gaW (c : Dev nD) (t : Fin cfg0.N) (d e : Fin 64) :
    iblk m c 4 t (ix2 d e : S64x64.Idx) = (m ((c : Thread nD τ).loc main_arg5)) (ix2 d e) := by
  obtain ⟨-, -, -, -, -, -, -, -, -, -, -, e0, e1, -⟩ := idx_facts t
  show (V m c main_arg5 : S64x64.Idx → EReal) (((cfg0.win 4).blk t).view.emb (ix2 d e : S64x64.Idx)) = _
  rw [V_main_arg5]
  refine congrArg _ (funext fun a => Fin.ext ?_)
  match a with
  | ⟨0, _⟩ => show win0_4.index t (0 : Fin 2) * 64 + 1 * d.val = d.val; omega
  | ⟨1, _⟩ => show win0_4.index t (1 : Fin 2) * 64 + 1 * e.val = e.val; omega

/-- The accumulation bias row's block is the whole bias, as a row. -/
theorem blk_gab (c : Dev nD) (t : Fin cfg0.N) (e : Fin 64) :
    iblk m c 5 t (ix2 (0 : Fin 1) e : S1x64.Idx) = (m ((c : Thread nD τ).loc main_arg6)) (ix1 e) := by
  obtain ⟨-, -, -, -, -, -, -, -, -, -, -, -, -, e0, e1⟩ := idx_facts t
  show (V m c main_v10 : S1x64.Idx → EReal) (((cfg0.win 5).blk t).view.emb (ix2 (0 : Fin 1) e : S1x64.Idx)) = _
  rw [V_v10]
  refine (congrArg _ (funext fun a => Fin.ext ?_)).trans (shapeCast_a_1a_apply (m ((c : Thread nD τ).loc main_arg6)) shapeCasts_S64_S1x64 (0 : Fin 1) e)
  match a with
  | ⟨0, _⟩ => show win0_5.index t (0 : Fin 2) * 1 + 1 * 0 = 0; omega
  | ⟨1, _⟩ => show win0_5.index t (1 : Fin 2) * 64 + 1 * e.val = e.val; omega

/-- The global branch's stacked weight matrices' block is the whole stack. -/
theorem blk_gW (c : Dev nD) (t : Fin cfg0.N) (l : Fin 2) (j k : Fin 64) :
    iblk m c 6 t (ix3 l j k : S2x64x64.Idx) = (m ((c : Thread nD τ).loc main_arg7)) (ix3 l j k) := by
  obtain ⟨e0, e1, e2, -⟩ := idx_facts' t
  show (V m c main_arg7 : S2x64x64.Idx → EReal) (((cfg0.win 6).blk t).view.emb (ix3 l j k : S2x64x64.Idx)) = _
  rw [V_main_arg7]
  refine congrArg _ (funext fun a => Fin.ext ?_)
  match a with
  | ⟨0, _⟩ => show win0_6.index t (0 : Fin 3) * 2 + 1 * l.val = l.val; omega
  | ⟨1, _⟩ => show win0_6.index t (1 : Fin 3) * 64 + 1 * j.val = j.val; omega
  | ⟨2, _⟩ => show win0_6.index t (2 : Fin 3) * 64 + 1 * k.val = k.val; omega

/-- The global branch's stacked bias rows' block is the whole stack. -/
theorem blk_gb (c : Dev nD) (t : Fin cfg0.N) (l : Fin 2) (j : Fin 64) :
    iblk m c 7 t (ix2 l j : S2x64.Idx) = (m ((c : Thread nD τ).loc main_arg8)) (ix2 l j) := by
  obtain ⟨-, -, -, e0, e1, -⟩ := idx_facts' t
  show (V m c main_arg8 : S2x64.Idx → EReal) (((cfg0.win 7).blk t).view.emb (ix2 l j : S2x64.Idx)) = _
  rw [V_main_arg8]
  refine congrArg _ (funext fun a => Fin.ext ?_)
  match a with
  | ⟨0, _⟩ => show win0_7.index t (0 : Fin 2) * 2 + 1 * l.val = l.val; omega
  | ⟨1, _⟩ => show win0_7.index t (1 : Fin 2) * 64 + 1 * j.val = j.val; omega

/-- The local branch's stacked weight matrices' block is the whole stack. -/
theorem blk_lW (c : Dev nD) (t : Fin cfg0.N) (l : Fin 2) (j k : Fin 64) :
    iblk m c 8 t (ix3 l j k : S2x64x64.Idx) = (m ((c : Thread nD τ).loc main_arg9)) (ix3 l j k) := by
  obtain ⟨-, -, -, -, -, e0, e1, e2, -⟩ := idx_facts' t
  show (V m c main_arg9 : S2x64x64.Idx → EReal) (((cfg0.win 8).blk t).view.emb (ix3 l j k : S2x64x64.Idx)) = _
  rw [V_main_arg9]
  refine congrArg _ (funext fun a => Fin.ext ?_)
  match a with
  | ⟨0, _⟩ => show win0_8.index t (0 : Fin 3) * 2 + 1 * l.val = l.val; omega
  | ⟨1, _⟩ => show win0_8.index t (1 : Fin 3) * 64 + 1 * j.val = j.val; omega
  | ⟨2, _⟩ => show win0_8.index t (2 : Fin 3) * 64 + 1 * k.val = k.val; omega

/-- The local branch's stacked bias rows' block is the whole stack. -/
theorem blk_lb (c : Dev nD) (t : Fin cfg0.N) (l : Fin 2) (j : Fin 64) :
    iblk m c 9 t (ix2 l j : S2x64.Idx) = (m ((c : Thread nD τ).loc main_arg10)) (ix2 l j) := by
  obtain ⟨-, -, -, -, -, -, -, -, e0, e1⟩ := idx_facts' t
  show (V m c main_arg10 : S2x64.Idx → EReal) (((cfg0.win 9).blk t).view.emb (ix2 l j : S2x64.Idx)) = _
  rw [V_main_arg10]
  refine congrArg _ (funext fun a => Fin.ext ?_)
  match a with
  | ⟨0, _⟩ => show win0_9.index t (0 : Fin 2) * 2 + 1 * l.val = l.val; omega
  | ⟨1, _⟩ => show win0_9.index t (1 : Fin 2) * 64 + 1 * j.val = j.val; omega

/-! ## What each point writes back, the cover, and the array after the run -/

theorem hz2 : (![0, 0] : Fin 2 → Nat) = fun _ => 0 := funext fun a => by fin_cases a <;> rfl
theorem hz3 : (![0, 0, 0] : Fin 3 → Nat) = fun _ => 0 := funext fun a => by fin_cases a <;> rfl

/-- The result array as the row function of the argument arrays, row by row. -/
def final (c : Dev nD) : S32768x64.Idx → EReal :=
  result (lookedUp (m ((c : Thread nD τ).loc main_arg0)) (m ((c : Thread nD τ).loc main_arg2))) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- WHAT POINT t WRITES BACK is block t — rows 512·t … 512·t + 511 — of the row function of the arrays. -/
theorem flushed_eq (c : Dev nD) (t : Fin cfg0.N) :
    (dats m 0 c).flushed 10 t = ((cfg0.win 10).blk t).view.read (Elt Ideal) (final m c) := by
  rw [flushed10]
  unfold out0_10
  rw [View.canon_unit_zero hz2]
  simp only [View.ld_unit_zero (S := S512x50x64) hz3, View.ld_unit_zero (S := S512x1) hz2, View.ld_unit_zero (S := S64x1) hz2,
    View.ld_unit_zero (S := S1x64) hz2, View.ld_unit_zero (S := S64x64) hz2, View.ld_unit_zero (S := S2x64x64) hz3,
    View.ld_unit_zero (S := S2x64) hz2]
  funext y
  obtain ⟨p, q, rfl⟩ : ∃ (p : Fin 512) (q : Fin 64), y = ix2 p q := ⟨y 0, y 1, eq_ix2 y⟩
  refine (RowValue.out_row (iblk m c 0 t) (iblk m c 1 t) (iblk m c 2 t) (iblk m c 3 t) (iblk m c 4 t) (iblk m c 5 t) (iblk m c 6 t)
    (iblk m c 7 t) (iblk m c 8 t) (iblk m c 9 t) p q).trans ?_
  have ht : t.val < 64 := lt_of_lt_of_eq t.isLt N_0
  have hlt : t.val * 512 + p.val < 32768 := by have := p.isLt; omega
  obtain ⟨e0, e1, -⟩ := idx_facts t
  have hemb : ((cfg0.win 10).blk t).view.emb (ix2 p q : S512x64.Idx) = (ix2 (⟨t.val * 512 + p.val, hlt⟩ : Fin 32768) q : S32768x64.Idx) :=
    funext fun a => Fin.ext (by
      match a with
      | ⟨0, _⟩ => show win0_10.index t (0 : Fin 2) * 512 + 1 * p.val = t.val * 512 + p.val; omega
      | ⟨1, _⟩ => show win0_10.index t (1 : Fin 2) * 64 + 1 * q.val = q.val; omega)
  show _ = final m c (((cfg0.win 10).blk t).view.emb (ix2 p q : S512x64.Idx))
  rw [hemb]
  unfold final result
  simp only [fun f d => blk_lookedUp m c t p f d ⟨t.val * 512 + p.val, hlt⟩ rfl, blk_number m c t p ⟨t.val * 512 + p.val, hlt⟩ rfl,
    blk_numW, blk_numB, blk_gaW, blk_gab, blk_gW, blk_gb, blk_lW, blk_lb]

/-- An index of the result is in point t's block iff each coordinate is in the block's range on its axis. -/
theorem mem_blk (t : Fin cfg0.N) (i : S32768x64.Idx) :
    i ∈ ((cfg0.win 10).blk t).view.set ↔ ∀ a : Fin 2, win0_10.index t a * S512x64.size a ≤ (i a).val ∧ (i a).val < win0_10.index t a * S512x64.size a + S512x64.size a := by
  show i ∈ ((View.whole main_v11).slice (win0_10.rect t)).set ↔ _
  rw [View.set_slice_whole, Rect.mem_set_unit]
  exact Iff.rfl

/-- Every index of the result is in some point's block: row r is in the block of point r / 512. -/
theorem cover (i : S32768x64.Idx) : ∃ t : Fin cfg0.N, (cfg0.win 10).flush t = true ∧ i ∈ ((cfg0.win 10).blk t).view.set := by
  have hi0 : (i 0).val < 32768 := (i 0).isLt
  have hi1 : (i 1).val < 64 := (i 1).isLt
  have hN : (i 0).val / 512 < cfg0.N := by have h64 : cfg0.N = 64 := N_0; omega
  refine ⟨⟨(i 0).val / 512, hN⟩, flush0_10 _, ?_⟩
  rw [mem_blk]
  obtain ⟨e0, e1, -⟩ := idx_facts ⟨(i 0).val / 512, hN⟩
  intro a
  match a with
  | ⟨0, _⟩ =>
    show win0_10.index ⟨(i 0).val / 512, hN⟩ (0 : Fin 2) * 512 ≤ (i 0).val ∧ (i 0).val < win0_10.index ⟨(i 0).val / 512, hN⟩ (0 : Fin 2) * 512 + 512
    rw [e0]
    show (i 0).val / 512 * 512 ≤ (i 0).val ∧ (i 0).val < (i 0).val / 512 * 512 + 512
    omega
  | ⟨1, _⟩ =>
    show win0_10.index ⟨(i 0).val / 512, hN⟩ (1 : Fin 2) * 64 ≤ (i 1).val ∧ (i 1).val < win0_10.index ⟨(i 0).val / 512, hN⟩ (1 : Fin 2) * 64 + 64
    rw [e1]
    omega

/-- THE RESULT ARRAY after the run is the row function of the argument arrays, row by row. -/
theorem final_eq (c : Dev nD) : (dats m 0 c).arrAt 10 cfg0.N = final m c :=
  (dats m 0 c).arrAt_eq_of_cover 10 (final m c) (fun t _ => flushed_eq m c t) cover

/-- The kernel's run, with the result array named. -/
theorem run : θ_run defs (onTc (τ := τ) (main (F := Ideal))) ⟨m, fun _ => 0, ρ⟩ fun r => ∀ c : Dev nD,
      r.2.mem ((c : Thread nD τ).loc main_v11) = final m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final_eq m c), (h c).2⟩) (run_blocks m ρ)

end Cert.KernelIdeal.ArrayValue

end
-- ==== Proof.RefFields.lean ====
/-
  The reference's 51 fields of a row — the 50 looked-up embeddings and the numeric field's embedding joined along the
  field axis — and every field through the accumulation matrix, read at an entry. A sum over the 51-long field axis
  is the sum over the first 50 fields plus the last.
-/
import proofs.«147127_j74165495267876_1_alg».proof.Proof.Gen.ReferenceIdeal.Read
import proofs.«147127_j74165495267876_1_alg».proof.Proof.Spec
import proofs.«147127_j74165495267876_1_alg».proof.Proof.LibBlockLayout
import proofs.«147127_j74165495267876_1_alg».proof.Proof.LibLayerStack
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RowValue

open Cert.ReferenceIdeal Cert.ReferenceIdeal.Gen Cert.ReferenceIdeal.Read Idealize.ShloMosaic Idealize.ShloMosaic.ValueIdx FieldMix

/-- Two indices are equal when their coordinates are; each coordinate by computation. -/
macro "idx_ext" : tactic => `(tactic| (funext a; apply Fin.ext; fin_cases a <;> rfl))

/-- A sum over 51 fields started at the zero word: the first 50 plus the last. -/
theorem zero_add_sum51 (X : Fin 51 → EReal) :
    Ideal.ofBits .f32 0x00000000#32 + ∑ F, X F = (∑ f : Fin 50, X f.castSucc) + X (Fin.last 50) := by
  rw [Ideal.ofBits_zero_f32, zero_add, Fin.sum_univ_castSucc]

/-- A sum started at the zero word is the sum. -/
theorem zero_add_sum {n : ℕ} (X : Fin n → EReal) : Ideal.ofBits .f32 0x00000000#32 + ∑ f, X f = ∑ f, X f := by
  rw [Ideal.ofBits_zero_f32, zero_add]

variable (x0 : (⟨S32768x50, .i32⟩ : BufTy).Contents (Elt Ideal)) (x1 : (⟨S32768, .f32⟩ : BufTy).Contents (Elt Ideal))
  (x2 : (⟨S100000x64, .f32⟩ : BufTy).Contents (Elt Ideal)) (x3 : (⟨S64x1, .f32⟩ : BufTy).Contents (Elt Ideal))
  (x4 : (⟨S64, .f32⟩ : BufTy).Contents (Elt Ideal)) (x5 : (⟨S64x64, .f32⟩ : BufTy).Contents (Elt Ideal))
  (x6 : (⟨S64, .f32⟩ : BufTy).Contents (Elt Ideal)) (x7 : (⟨S2x64x64, .f32⟩ : BufTy).Contents (Elt Ideal))
  (x8 : (⟨S2x64, .f32⟩ : BufTy).Contents (Elt Ideal)) (x9 : (⟨S2x64x64, .f32⟩ : BufTy).Contents (Elt Ideal))
  (x10 : (⟨S2x64, .f32⟩ : BufTy).Contents (Elt Ideal))

/-- The numeric field's embedding at row b, feature d. -/
theorem numEmb_apply (b : Fin 32768) (d : Fin 64) :
    val_main_v15 (F := Ideal) x1 x3 x4 (ix2 b d)
      = numEmb (x1 (ix1 b)) (fun d => x3 (ix2 d (0 : Fin 1))) (fun d => x4 (ix1 d)) d := by
  rw [val_main_v15_apply, val_main_v12_apply, val_main_v10_apply, val_main_v7_apply, val_main_v11_apply, val_main_v9_apply,
    val_main_v14_apply, val_main_v13_apply]
  rw [show idx_main_v7 (idx_main_v10 (ix2 b d)) = ix1 b by idx_ext,
    show idx_main_v9 (idx_main_v11 (ix2 b d)) = ix1 d by idx_ext,
    show idx_main_v13 (idx_main_v14 (ix2 b d)) = ix1 d by idx_ext]
  unfold val_main_v8
  rw [BlockLayout.shapeCast_c1_c_apply]
  rfl

/-- Field f < 50 of the joined array is the looked-up embedding. -/
theorem emb_field (b : Fin 32768) (f : Fin 50) (d : Fin 64) :
    val_main_v17 (F := Ideal) x0 x1 x2 x3 x4 (ix3 b f.castSucc d) = val_main_v6 (F := Ideal) x0 x2 (ix3 b f d) := by
  unfold val_main_v17
  exact concatenate_pair_apply_left (t := S32768x51x64) (s₁ := S32768x50x64) (s₂ := S32768x1x64) 1 (val_main_v6 (F := Ideal) x0 x2)
    (val_main_v16 (F := Ideal) x1 x3 x4) concatenates_S32768x50x64_S32768x1x64_S32768x51x64_d1 (ix3 b f.castSucc d) rfl (ix3 b f d)
    (fun a => by fin_cases a <;> rfl)

/-- The last field of the joined array is the numeric field's embedding. -/
theorem emb_num (b : Fin 32768) (d : Fin 64) :
    val_main_v17 (F := Ideal) x0 x1 x2 x3 x4 (ix3 b (Fin.last 50) d)
      = numEmb (x1 (ix1 b)) (fun d => x3 (ix2 d (0 : Fin 1))) (fun d => x4 (ix1 d)) d := by
  unfold val_main_v17
  rw [concatenate_pair_apply_right (t := S32768x51x64) (s₁ := S32768x50x64) (s₂ := S32768x1x64) 1 (val_main_v6 (F := Ideal) x0 x2)
    (val_main_v16 (F := Ideal) x1 x3 x4) concatenates_S32768x50x64_S32768x1x64_S32768x51x64_d1 (ix3 b (Fin.last 50) d) rfl rfl
    (ix3 b (0 : Fin 1) d) (fun a ha => by fin_cases a <;> first | rfl | exact absurd rfl ha) rfl]
  rw [val_main_v16_apply, show idx_main_v16 (ix3 b (0 : Fin 1) d) = ix2 b d by idx_ext, numEmb_apply]

/-- Any of the 51 fields through the accumulation matrix. -/
theorem support_apply (b : Fin 32768) (F : Fin 51) (e : Fin 64) :
    val_main_v18 (F := Ideal) x0 x1 x2 x3 x4 x5 (ix3 b F e)
      = ∑ k : Fin 64, val_main_v17 (F := Ideal) x0 x1 x2 x3 x4 (ix3 b F k) * x5 (ix2 k e) := by
  rw [val_main_v18_apply]
  refine Finset.sum_congr rfl fun k _ => ?_
  rw [show lidx_main_v18 (ix3 b F e) k = ix3 b F k by idx_ext, show ridx_main_v18 (ix3 b F e) k = ix2 k e by idx_ext]

theorem support_field (b : Fin 32768) (f : Fin 50) (e : Fin 64) :
    val_main_v18 (F := Ideal) x0 x1 x2 x3 x4 x5 (ix3 b f.castSucc e)
      = supField (fun f d => val_main_v6 (F := Ideal) x0 x2 (ix3 b f d)) (fun d e => x5 (ix2 d e)) f e := by
  rw [support_apply]
  unfold supField
  exact Finset.sum_congr rfl fun k _ => by rw [emb_field]

theorem support_num (b : Fin 32768) (e : Fin 64) :
    val_main_v18 (F := Ideal) x0 x1 x2 x3 x4 x5 (ix3 b (Fin.last 50) e)
      = supNum (x1 (ix1 b)) (fun d => x3 (ix2 d (0 : Fin 1))) (fun d => x4 (ix1 d)) (fun d e => x5 (ix2 d e)) e := by
  rw [support_apply]
  unfold supNum
  exact Finset.sum_congr rfl fun k _ => by rw [emb_num]

/-- The total over the 51 fields. -/
theorem total_apply (b : Fin 32768) (e : Fin 64) :
    val_main_v19 (F := Ideal) x0 x1 x2 x3 x4 x5 (ix2 b e)
      = supTotal (fun f d => val_main_v6 (F := Ideal) x0 x2 (ix3 b f d)) (x1 (ix1 b)) (fun d => x3 (ix2 d (0 : Fin 1)))
          (fun d => x4 (ix1 d)) (fun d e => x5 (ix2 d e)) e := by
  rw [val_main_v19_apply, val_main_cst_apply]
  refine (zero_add_sum51 _).trans ?_
  unfold supTotal
  rw [show idx_main_v19 (ix2 b e) (Fin.last 50) = ix3 b (Fin.last 50) e by idx_ext, support_num]
  refine congrArg (· + _) (Finset.sum_congr rfl fun f _ => ?_)
  rw [show idx_main_v19 (ix2 b e) f.castSucc = ix3 b f.castSucc e by idx_ext, support_field]

end Cert.ReferenceIdeal.RowValue

end
-- ==== Proof.RefBranches.lean ====
/-
  The reference's global and local branches read at an entry of row b, in terms of the row function's pieces: each of
  the 51 fields' accumulated value, the mean of the rectified values, the pairwise-interaction term, and a dense layer
  `y ↦ y · Wᵀ + b` whose weight matrix and bias are layer l of the stacked parameters.
-/
import proofs.«147127_j74165495267876_1_alg».proof.Proof.Gen.ReferenceIdeal.Read
import proofs.«147127_j74165495267876_1_alg».proof.Proof.Spec
import proofs.«147127_j74165495267876_1_alg».proof.Proof.LibBlockLayout
import proofs.«147127_j74165495267876_1_alg».proof.Proof.LibLayerStack
import proofs.«147127_j74165495267876_1_alg».proof.Proof.RefFields
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RowValue

open Cert.ReferenceIdeal Cert.ReferenceIdeal.Gen Cert.ReferenceIdeal.Read Idealize.ShloMosaic Idealize.ShloMosaic.ValueIdx FieldMix

variable (x0 : (⟨S32768x50, .i32⟩ : BufTy).Contents (Elt Ideal)) (x1 : (⟨S32768, .f32⟩ : BufTy).Contents (Elt Ideal))
  (x2 : (⟨S100000x64, .f32⟩ : BufTy).Contents (Elt Ideal)) (x3 : (⟨S64x1, .f32⟩ : BufTy).Contents (Elt Ideal))
  (x4 : (⟨S64, .f32⟩ : BufTy).Contents (Elt Ideal)) (x5 : (⟨S64x64, .f32⟩ : BufTy).Contents (Elt Ideal))
  (x6 : (⟨S64, .f32⟩ : BufTy).Contents (Elt Ideal)) (x7 : (⟨S2x64x64, .f32⟩ : BufTy).Contents (Elt Ideal))
  (x8 : (⟨S2x64, .f32⟩ : BufTy).Contents (Elt Ideal)) (x9 : (⟨S2x64x64, .f32⟩ : BufTy).Contents (Elt Ideal))
  (x10 : (⟨S2x64, .f32⟩ : BufTy).Contents (Elt Ideal))

/-- A field's accumulated value: (total + 39 · own) / 90 + bias. -/
theorem acc_apply (b : Fin 32768) (F : Fin 51) (e : Fin 64) :
    val_main_v29 (F := Ideal) x0 x1 x2 x3 x4 x5 x6 (ix3 b F e)
      = Ideal.div (val_main_v19 (F := Ideal) x0 x1 x2 x3 x4 x5 (ix2 b e) + w39 * val_main_v18 (F := Ideal) x0 x1 x2 x3 x4 x5 (ix3 b F e)) w90
          + x6 (ix1 e) := by
  rw [val_main_v29_apply, val_main_v26_apply, val_main_v24_apply, val_main_v23_apply, val_main_v20_apply, val_main_v22_apply,
    val_main_v21_apply, val_main_cst_1_apply, val_main_v25_apply, val_main_cst_2_apply, val_main_v28_apply, val_main_v27_apply]
  rw [show idx_main_v20 (idx_main_v23 (ix3 b F e)) = ix2 b e by idx_ext,
    show idx_main_v27 (idx_main_v28 (ix3 b F e)) = ix1 e by idx_ext]
  rfl

/-- The mean over the 51 fields of the rectified accumulated values. -/
theorem globalIn_apply (b : Fin 32768) (e : Fin 64) :
    val_main_v33 (F := Ideal) x0 x1 x2 x3 x4 x5 x6 (ix2 b e)
      = globalIn (fun f d => val_main_v6 (F := Ideal) x0 x2 (ix3 b f d)) (x1 (ix1 b)) (fun d => x3 (ix2 d (0 : Fin 1))) (fun d => x4 (ix1 d)) (fun d e => x5 (ix2 d e)) (fun e => x6 (ix1 e)) e := by
  rw [val_main_v33_apply, val_main_v31_apply, val_main_cst_3_apply, val_main_v32_apply, val_main_cst_4_apply]
  unfold globalIn
  refine congrArg (fun s => Ideal.div s w51) ?_
  refine (zero_add_sum51 _).trans ?_
  refine congrArg₂ (fun s t : EReal => s + t) (Finset.sum_congr rfl fun f _ => ?_) ?_
  · rw [show idx_main_v31 (ix2 b e) f.castSucc = ix3 b f.castSucc e by idx_ext, val_main_v30_apply, val_main_call0_v0_apply,
      val_main_call0_cst_apply, acc_apply, total_apply, support_field]
    rfl
  · rw [show idx_main_v31 (ix2 b e) (Fin.last 50) = ix3 b (Fin.last 50) e by idx_ext, val_main_v30_apply, val_main_call0_v0_apply,
      val_main_call0_cst_apply, acc_apply, total_apply, support_num]
    rfl

/-- The pairwise-interaction term. -/
theorem localIn_apply (b : Fin 32768) (d : Fin 64) :
    val_main_v59 (F := Ideal) x0 x1 x2 x3 x4 (ix2 b d) = localIn (fun f d => val_main_v6 (F := Ideal) x0 x2 (ix3 b f d)) (x1 (ix1 b)) (fun d => x3 (ix2 d (0 : Fin 1))) (fun d => x4 (ix1 d)) d := by
  rw [val_main_v59_apply, val_main_v58_apply, val_main_cst_7_apply, val_main_v57_apply, val_main_v56_apply, val_main_v53_apply,
    val_main_cst_5_apply, val_main_v55_apply, val_main_cst_6_apply]
  unfold localIn
  have hs : Ideal.ofBits .f32 0x00000000#32 + ∑ k : Fin 51, val_main_v17 (F := Ideal) x0 x1 x2 x3 x4 (idx_main_v53 (ix2 b d) k)
      = (∑ f : Fin 50, val_main_v6 (F := Ideal) x0 x2 (ix3 b f d)) + numEmb (x1 (ix1 b)) (fun d => x3 (ix2 d (0 : Fin 1))) (fun d => x4 (ix1 d)) d := by
    refine (zero_add_sum51 _).trans ?_
    rw [show idx_main_v53 (ix2 b d) (Fin.last 50) = ix3 b (Fin.last 50) d by idx_ext, emb_num]
    refine congrArg (· + _) (Finset.sum_congr rfl fun f _ => ?_)
    rw [show idx_main_v53 (ix2 b d) f.castSucc = ix3 b f.castSucc d by idx_ext, emb_field]
  have hq : Ideal.ofBits .f32 0x00000000#32 + ∑ k : Fin 50, val_main_v54 (F := Ideal) x0 x2 (idx_main_v55 (ix2 b d) k)
      = ∑ f : Fin 50, val_main_v6 (F := Ideal) x0 x2 (ix3 b f d) * val_main_v6 (F := Ideal) x0 x2 (ix3 b f d) := by
    refine (zero_add_sum _).trans (Finset.sum_congr rfl fun f _ => ?_)
    rw [show idx_main_v55 (ix2 b d) f = ix3 b f d by idx_ext, val_main_v54_apply]
    rfl
  exact congrArg₂ (fun s q => whalf * (s * s - q)) hs hq

/-- A dense layer over rows of the batch, the weight matrix and the bias being layer l of the stacked parameters:
    the product with the transposed matrix plus the bias, at (b, j). -/
theorem refDense (y : S32768x64.Idx → EReal) (W : S2x64x64.Idx → EReal) (B : S2x64.Idx → EReal) (o : ℕ)
    (hW : S2x64x64.Slices ![o, 0, 0] S1x64x64) (hB : S2x64.Slices ![o, 0] S1x64) (l : Fin 2) (hl : l.val = o) (b : Fin 32768) (j : Fin 64) :
    (∑ k : Fin 64, y (ix2 b k) * transpose S64x64 [1, 0] (shapeCast S64x64 (extractStridedSlice S1x64x64 ![o, 0, 0] W hW) shapeCasts_S1x64x64_S64x64) transposes_S64x64_S64x64_1_0 (ix2 k j))
        + shapeCast S64 (extractStridedSlice S1x64 ![o, 0] B hB) shapeCasts_S1x64_S64 (ix1 j)
      = dense (fun j k => W (ix3 l j k)) (fun j => B (ix2 l j)) (fun k => y (ix2 b k)) j := by
  unfold dense
  rw [LayerStack.row_apply B o hB shapeCasts_S1x64_S64 l hl j]
  refine congrArg (· + _) (Finset.sum_congr rfl fun k _ => ?_)
  rw [transpose_ix2_apply, LayerStack.matrix_apply W o hW shapeCasts_S1x64x64_S64x64 l hl j k]

end Cert.ReferenceIdeal.RowValue

end
-- ==== Proof.RefOut.lean ====
/-
  The reference's result at an entry (b, e) is the row function of row b of its arguments: each branch's two dense
  layers with the rectifier between them, then the half-and-half mix.
-/
import proofs.«147127_j74165495267876_1_alg».proof.Proof.Gen.ReferenceIdeal.Read
import proofs.«147127_j74165495267876_1_alg».proof.Proof.Spec
import proofs.«147127_j74165495267876_1_alg».proof.Proof.LibBlockLayout
import proofs.«147127_j74165495267876_1_alg».proof.Proof.LibLayerStack
import proofs.«147127_j74165495267876_1_alg».proof.Proof.RefFields
import proofs.«147127_j74165495267876_1_alg».proof.Proof.RefBranches
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RowValue

open Cert.ReferenceIdeal Cert.ReferenceIdeal.Gen Cert.ReferenceIdeal.Read Idealize.ShloMosaic Idealize.ShloMosaic.ValueIdx FieldMix

variable (x0 : (⟨S32768x50, .i32⟩ : BufTy).Contents (Elt Ideal)) (x1 : (⟨S32768, .f32⟩ : BufTy).Contents (Elt Ideal))
  (x2 : (⟨S100000x64, .f32⟩ : BufTy).Contents (Elt Ideal)) (x3 : (⟨S64x1, .f32⟩ : BufTy).Contents (Elt Ideal))
  (x4 : (⟨S64, .f32⟩ : BufTy).Contents (Elt Ideal)) (x5 : (⟨S64x64, .f32⟩ : BufTy).Contents (Elt Ideal))
  (x6 : (⟨S64, .f32⟩ : BufTy).Contents (Elt Ideal)) (x7 : (⟨S2x64x64, .f32⟩ : BufTy).Contents (Elt Ideal))
  (x8 : (⟨S2x64, .f32⟩ : BufTy).Contents (Elt Ideal)) (x9 : (⟨S2x64x64, .f32⟩ : BufTy).Contents (Elt Ideal))
  (x10 : (⟨S2x64, .f32⟩ : BufTy).Contents (Elt Ideal))

/-- The global branch's first layer. -/
theorem g1_apply (b : Fin 32768) (j : Fin 64) :
    val_main_v42 (F := Ideal) x0 x1 x2 x3 x4 x5 x6 x7 x8 (ix2 b j)
      = dense (fun j k => x7 (ix3 (0 : Fin 2) j k)) (fun j => x8 (ix2 (0 : Fin 2) j)) (fun k => val_main_v33 (F := Ideal) x0 x1 x2 x3 x4 x5 x6 (ix2 b k)) j := by
  rw [val_main_v42_apply, val_main_v37_apply, val_main_v41_apply, val_main_v40_apply]
  rw [show idx_main_v40 (idx_main_v41 (ix2 b j)) = ix1 j by idx_ext]
  simp only [show ∀ k, lidx_main_v37 (ix2 b j) k = ix2 b k from fun k => by idx_ext,
    show ∀ k, ridx_main_v37 (ix2 b j) k = ix2 k j from fun k => by idx_ext]
  exact refDense _ x7 x8 0 slices_S2x64x64_S1x64x64_0_0_0 slices_S2x64_S1x64_0_0 0 rfl b j

/-- The global branch's two layers. -/
theorem g2_apply (b : Fin 32768) (j : Fin 64) :
    val_main_v52 (F := Ideal) x0 x1 x2 x3 x4 x5 x6 x7 x8 (ix2 b j)
      = mlp (fun j k => x7 (ix3 (0 : Fin 2) j k)) (fun j k => x7 (ix3 (1 : Fin 2) j k)) (fun j => x8 (ix2 (0 : Fin 2) j)) (fun j => x8 (ix2 (1 : Fin 2) j)) (fun k => val_main_v33 (F := Ideal) x0 x1 x2 x3 x4 x5 x6 (ix2 b k)) j := by
  rw [val_main_v52_apply, val_main_v47_apply, val_main_v51_apply, val_main_v50_apply]
  rw [show idx_main_v50 (idx_main_v51 (ix2 b j)) = ix1 j by idx_ext]
  simp only [show ∀ k, lidx_main_v47 (ix2 b j) k = ix2 b k from fun k => by idx_ext,
    show ∀ k, ridx_main_v47 (ix2 b j) k = ix2 k j from fun k => by idx_ext]
  unfold mlp
  refine (refDense _ x7 x8 1 slices_S2x64x64_S1x64x64_1_0_0 slices_S2x64_S1x64_1_0 1 rfl b j).trans ?_
  refine congrArg (fun z => dense _ _ z j) (funext fun k => ?_)
  rw [val_main_v43_apply, val_main_call1_v0_apply, val_main_call1_cst_apply, g1_apply]
  rfl

/-- The local branch's first layer. -/
theorem l1_apply (b : Fin 32768) (j : Fin 64) :
    val_main_v68 (F := Ideal) x0 x1 x2 x3 x4 x9 x10 (ix2 b j)
      = dense (fun j k => x9 (ix3 (0 : Fin 2) j k)) (fun j => x10 (ix2 (0 : Fin 2) j)) (fun k => val_main_v59 (F := Ideal) x0 x1 x2 x3 x4 (ix2 b k)) j := by
  rw [val_main_v68_apply, val_main_v63_apply, val_main_v67_apply, val_main_v66_apply]
  rw [show idx_main_v66 (idx_main_v67 (ix2 b j)) = ix1 j by idx_ext]
  simp only [show ∀ k, lidx_main_v63 (ix2 b j) k = ix2 b k from fun k => by idx_ext,
    show ∀ k, ridx_main_v63 (ix2 b j) k = ix2 k j from fun k => by idx_ext]
  exact refDense _ x9 x10 0 slices_S2x64x64_S1x64x64_0_0_0 slices_S2x64_S1x64_0_0 0 rfl b j

/-- The local branch's two layers. -/
theorem l2_apply (b : Fin 32768) (j : Fin 64) :
    val_main_v78 (F := Ideal) x0 x1 x2 x3 x4 x9 x10 (ix2 b j)
      = mlp (fun j k => x9 (ix3 (0 : Fin 2) j k)) (fun j k => x9 (ix3 (1 : Fin 2) j k)) (fun j => x10 (ix2 (0 : Fin 2) j)) (fun j => x10 (ix2 (1 : Fin 2) j)) (fun k => val_main_v59 (F := Ideal) x0 x1 x2 x3 x4 (ix2 b k)) j := by
  rw [val_main_v78_apply, val_main_v73_apply, val_main_v77_apply, val_main_v76_apply]
  rw [show idx_main_v76 (idx_main_v77 (ix2 b j)) = ix1 j by idx_ext]
  simp only [show ∀ k, lidx_main_v73 (ix2 b j) k = ix2 b k from fun k => by idx_ext,
    show ∀ k, ridx_main_v73 (ix2 b j) k = ix2 k j from fun k => by idx_ext]
  unfold mlp
  refine (refDense _ x9 x10 1 slices_S2x64x64_S1x64x64_1_0_0 slices_S2x64_S1x64_1_0 1 rfl b j).trans ?_
  refine congrArg (fun z => dense _ _ z j) (funext fun k => ?_)
  rw [val_main_v69_apply, val_main_call2_v0_apply, val_main_call2_cst_apply, l1_apply]
  rfl

/-- THE REFERENCE'S RESULT at (b, e): the row function of row b of its arguments — the 50 looked-up embeddings of the
    row, its number, and the parameters — at feature e. -/
theorem ref_row (b : Fin 32768) (e : Fin 64) :
    val_main_v83 (F := Ideal) x0 x1 x2 x3 x4 x5 x6 x7 x8 x9 x10 (ix2 b e)
      = rowOut (fun f d => val_main_v6 (F := Ideal) x0 x2 (ix3 b f d)) (x1 (ix1 b)) (fun d => x3 (ix2 d (0 : Fin 1))) (fun d => x4 (ix1 d)) (fun d e => x5 (ix2 d e)) (fun e => x6 (ix1 e))
          (fun j k => x7 (ix3 (0 : Fin 2) j k)) (fun j k => x7 (ix3 (1 : Fin 2) j k)) (fun j => x8 (ix2 (0 : Fin 2) j)) (fun j => x8 (ix2 (1 : Fin 2) j)) (fun j k => x9 (ix3 (0 : Fin 2) j k)) (fun j k => x9 (ix3 (1 : Fin 2) j k)) (fun j => x10 (ix2 (0 : Fin 2) j)) (fun j => x10 (ix2 (1 : Fin 2) j)) e := by
  rw [val_main_v83_apply, val_main_v80_apply, val_main_v82_apply, val_main_v79_apply, val_main_cst_8_apply, val_main_v81_apply,
    val_main_cst_9_apply, g2_apply, l2_apply]
  unfold rowOut
  simp only [globalIn_apply, localIn_apply]
  rfl

/-- THE REFERENCE'S RESULT ARRAY is the row function of its arguments, row by row. -/
theorem ref_result :
    val_main_v83 (F := Ideal) x0 x1 x2 x3 x4 x5 x6 x7 x8 x9 x10
      = result (val_main_v6 (F := Ideal) x0 x2) x1 x3 x4 x5 x6 x7 x8 x9 x10 := by
  funext i
  obtain ⟨b, e, rfl⟩ : ∃ (b : Fin 32768) (e : Fin 64), i = ix2 b e := ⟨i 0, i 1, eq_ix2 i⟩
  exact ref_row x0 x1 x2 x3 x4 x5 x6 x7 x8 x9 x10 b e

end Cert.ReferenceIdeal.RowValue

end
-- ==== Proof.lean ====
/-
  A fused field mixer against its plain reference, equal as extended reals.

  Both programs look 50 embeddings per batch row up in a table (the same index normalisation and the same gather, on the
  host), turn the row's one number into a 51st field by a rank-one linear map, and mix the 51 fields in two branches —
  a global one (every field through one 64 × 64 matrix; each field's value (total + 39 · own) / 90 + bias; the rectified
  values averaged over the 51 fields; two dense layers) and a local one (half of the square of the sum over the 51 fields
  less the squares of the 50 looked-up ones; two dense layers) — and return half of each.

  The kernel works on 64 blocks of 512 rows; it multiplies the 50 looked-up fields of a block as ONE flat
  25600 × 64 matrix and the numeric field separately, and sums over the 50 looked-up fields plus the numeric one. The
  reference joins the 51 fields into one array and sums over its 51-long field axis. With exact arithmetic a change of
  float format is the identity and a matrix product is the plain sum of products, so the two differ only in that the
  reference's sums over 51 fields split as the sum over the first 50 plus the last — associativity of addition on the
  extended reals; no finiteness of the inputs is used. Every constant (39, 90, 51, one half, zero) is the same word on
  both sides.

  Proof/Spec.lean states the row function; Proof/Kernel*.lean read the kernel body's stored value at an entry as the
  row function of the blocks' row and carry it from the blocks to the whole array; Proof/Ref*.lean read the reference's
  result at an entry as the row function of its arguments' row. Here the two meet: the looked-up embeddings are the
  same term of the index array and the table in both programs.
-/
import proofs.«147127_j74165495267876_1_alg».proof.Defs
import proofs.«147127_j74165495267876_1_alg».proof.Proof.Gen.Kernel
import proofs.«147127_j74165495267876_1_alg».proof.Proof.Gen.Kernel.Skeleton
import proofs.«147127_j74165495267876_1_alg».proof.Proof.Gen.Kernel.Launch
import proofs.«147127_j74165495267876_1_alg».proof.Proof.Gen.Kernel.Points
import proofs.«147127_j74165495267876_1_alg».proof.Proof.Gen.Kernel.Frame
import proofs.«147127_j74165495267876_1_alg».proof.Proof.Gen.KernelIdeal
import proofs.«147127_j74165495267876_1_alg».proof.Proof.Gen.KernelIdeal.Skeleton
import proofs.«147127_j74165495267876_1_alg».proof.Proof.Gen.KernelIdeal.Launch
import proofs.«147127_j74165495267876_1_alg».proof.Proof.Gen.KernelIdeal.Points
import proofs.«147127_j74165495267876_1_alg».proof.Proof.Gen.KernelIdeal.Frame
import proofs.«147127_j74165495267876_1_alg».proof.Proof.Gen.KernelIdeal.Value
import proofs.«147127_j74165495267876_1_alg».proof.Proof.Gen.ReferenceIdeal
import proofs.«147127_j74165495267876_1_alg».proof.Proof.Gen.ReferenceIdeal.Run
import proofs.«147127_j74165495267876_1_alg».proof.Proof.Gen.ReferenceIdeal.Read
import proofs.«147127_j74165495267876_1_alg».proof.Proof.Gen.Pre_finite_inputs
import proofs.«147127_j74165495267876_1_alg».proof.Proof.KernelArray
import proofs.«147127_j74165495267876_1_alg».proof.Proof.RefOut
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two programs look the embeddings up by one and the same term of the index array and the table. -/
theorem lookedUp_eq (a0 : IVec Cert.KernelIdeal.S32768x50 32) (a2 : FVec Ideal Cert.KernelIdeal.S100000x64 .f32) :
    Cert.ReferenceIdeal.Read.val_main_v6 (F := Ideal) a0 a2 = Cert.KernelIdeal.ArrayValue.lookedUp a0 a2 := rfl

/-- Run from memories that agree on the arguments, both programs end with the result array at the row function of
    the arguments, row by row. -/
theorem algebraic : Cert.algebraic_KernelIdeal_ReferenceIdeal := by
  intro m ρ m' ρ' _ hagree
  refine ⟨fun c => Cert.KernelIdeal.ArrayValue.final m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v83_eq, Cert.ReferenceIdeal.RowValue.ref_result, h0, h1, h2, h3, h4, h5, h6, h7, h8, h9, h10,
    lookedUp_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
